-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel

variable [Facts]

def fn {F : FTy → Type} [FloatOps F] (main_arg0 : FVec F S16x32x256x256 .f32) (main_arg1 : FVec F S16x32x256x256 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S16x32x256x256 .f32 := Host.absf main_arg1
  let main_cst_0 : FVec F S_ .f32 := constant S_ .f32 0x7F800000#32
  let main_v5 : FVec F S16x32x256x256 .f32 := broadcastInDim S16x32x256x256 ![] bcast_S_S16x32x256x256 main_cst_0
  let main_v6 : IVec S16x32x256x256 1 := cmpf .olt main_v4 main_v5
  let main_c_1 : IVec S_ 1 := constantI S_ 1 1#1
  let main_v7 : IVec S_ 1 := (fun x v => Host.reduce IntOp.andi x v reducesTo_S16x32x256x256_S_d0_1_2_3 h_S_) main_v6 main_c_1
  let main_v8 : IVec S_ 1 := andi main_v3 main_v7
  main_v8
-- ==== Kernel.lean ====
abbrev S16x32x256x256 : Shape := ⟨4, ![16, 32, 256, 256]⟩
abbrev S16x32x65536 : Shape := ⟨3, ![16, 32, 65536]⟩
abbrev S2x3x128 : Shape := ⟨3, ![2, 3, 128]⟩
abbrev S2x3x1 : Shape := ⟨3, ![2, 3, 1]⟩
abbrev S2x3 : Shape := ⟨2, ![2, 3]⟩
abbrev S_ : Shape := ⟨0, ![]⟩
abbrev S3 : Shape := ⟨1, ![3]⟩
abbrev S1 : Shape := ⟨1, ![1]⟩
abbrev S1x32x16384 : Shape := ⟨3, ![1, 32, 16384]⟩
abbrev S1x3x128 : Shape := ⟨3, ![1, 3, 128]⟩
abbrev S3x16384 : Shape := ⟨2, ![3, 16384]⟩
abbrev S32x16384 : Shape := ⟨2, ![32, 16384]⟩
abbrev S16384 : Shape := ⟨1, ![16384]⟩
abbrev S1x16384 : Shape := ⟨2, ![1, 16384]⟩
abbrev S3x1 : Shape := ⟨2, ![3, 1]⟩
abbrev S3x128 : Shape := ⟨2, ![3, 128]⟩

abbrev nBuf : Space → Nat
  | .hbm => 18
  | .vmem => 7
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S16x32x65536, .f32⟩
  | .hbm, ⟨3, _⟩ => ⟨S16x32x65536, .f32⟩
  | .hbm, ⟨4, _⟩ => ⟨S2x3x128, .f32⟩
  | .hbm, ⟨5, _⟩ => ⟨S2x3x1, .f32⟩
  | .hbm, ⟨6, _⟩ => ⟨S2x3, .f32⟩
  | .hbm, ⟨7, _⟩ => ⟨S_, .f32⟩
  | .hbm, ⟨8, _⟩ => ⟨S3, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .local _ .vmem, ⟨0, _⟩ => ⟨S1x32x16384, .f32⟩
  | .local _ .vmem, ⟨1, _⟩ => ⟨S1x32x16384, .f32⟩
  | .local _ .vmem, ⟨2, _⟩ => ⟨S1x32x16384, .f32⟩
  | .local _ .vmem, ⟨3, _⟩ => ⟨S1x32x16384, .f32⟩
  | .local _ .vmem, ⟨4, _⟩ => ⟨S1x3x128, .f32⟩
  | .local _ .vmem, ⟨5, _⟩ => ⟨S1x3x128, .f32⟩
  | .local _ .vmem, ⟨6, _⟩ => ⟨S3x16384, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_cst_0 : Ref sig .tc := ⟨.hbm, 11, rfl⟩
abbrev main_v0_1 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_v0_0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v44 : BitVec 1 := Scalar.cmpi .eq arg1 c31_i32
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x32x256x256_S16x32x65536 : S16x32x256x256.ShapeCasts S16x32x65536
  slices_S2x3x128_S2x3x1_0_0_0 : S2x3x128.Slices ![0, 0, 0] S2x3x1
  shapeCasts_S2x3x1_S2x3 : S2x3x1.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  reduces_S32x16384_S16384 : S32x16384.Reduces [0] S16384
  shapeCasts_S16384_S1x16384 : S16384.ShapeCasts S1x16384
  broadcasts_S1x16384_S32x16384 : S1x16384.Broadcasts S32x16384
  slices_S32x16384_o0_0_S1x16384 : S32x16384.Slices ![0, 0] S1x16384
  inb_S3x16384_S1x16384_0_0 : ∀ a, (![0, 0] : Fin 2 → Nat) a + S1x16384.size a ≤ S3x16384.size a
  h_S1x16384 : 0 < S1x16384.numel
  shapeCasts_S1x16384_S1x16384 : S1x16384.ShapeCasts S1x16384
  inb_S3x16384_S1x16384_1_0 : ∀ a, (![1, 0] : Fin 2 → Nat) a + S1x16384.size a ≤ S3x16384.size a
  natLt_1_32 : 1 < 32
  inb_S3x16384_S1x16384_2_0 : ∀ a, (![2, 0] : Fin 2 → Nat) a + S1x16384.size a ≤ S3x16384.size a
  reduces_S3x16384_S3 : S3x16384.Reduces [1] S3
  shapeCasts_S3_S3x1 : S3.ShapeCasts S3x1
  shapeCasts_S3x1_S3x1 : S3x1.ShapeCasts S3x1
  broadcasts_S3x1_S3x128 : S3x1.Broadcasts S3x128
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x16384.size a ≤ S16x32x65536.size a
  hwx0_0 : ∀ i : grid0.Coords, EltTy.bits .f32 = 32 ∨ (Rect.block (s := S16x32x65536) S1x32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x16384.size a ≤ S16x32x65536.size a
  hwx0_1 : ∀ i : grid0.Coords, EltTy.bits .f32 = 32 ∨ (Rect.block (s := S16x32x65536) S1x32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_call0_v0) S1x32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x32x256x256 : Shape := ⟨4, ![16, 32, 256, 256]⟩
abbrev S16x32x65536 : Shape := ⟨3, ![16, 32, 65536]⟩
abbrev S16x3x128 : Shape := ⟨3, ![16, 3, 128]⟩
abbrev S16x3x1 : Shape := ⟨3, ![16, 3, 1]⟩
abbrev S16x3 : Shape := ⟨2, ![16, 3]⟩
abbrev S_ : Shape := ⟨0, ![]⟩
abbrev S3 : Shape := ⟨1, ![3]⟩
abbrev S1 : Shape := ⟨1, ![1]⟩
abbrev S1x32x27008 : Shape := ⟨3, ![1, 32, 27008]⟩
abbrev S1x3x128 : Shape := ⟨3, ![1, 3, 128]⟩
abbrev S3x27008 : Shape := ⟨2, ![3, 27008]⟩
abbrev S32x27008 : Shape := ⟨2, ![32, 27008]⟩
abbrev S27008 : Shape := ⟨1, ![27008]⟩
abbrev S1x27008 : Shape := ⟨2, ![1, 27008]⟩
abbrev S3x1 : Shape := ⟨2, ![3, 1]⟩
abbrev S3x128 : Shape := ⟨2, ![3, 128]⟩

abbrev nBuf : Space → Nat
  | .hbm => 18
  | .vmem => 7
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S16x32x65536, .f32⟩
  | .hbm, ⟨3, _⟩ => ⟨S16x32x65536, .f32⟩
  | .hbm, ⟨4, _⟩ => ⟨S16x3x128, .f32⟩
  | .hbm, ⟨5, _⟩ => ⟨S16x3x1, .f32⟩
  | .hbm, ⟨6, _⟩ => ⟨S16x3, .f32⟩
  | .hbm, ⟨7, _⟩ => ⟨S_, .f32⟩
  | .hbm, ⟨8, _⟩ => ⟨S3, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .local _ .vmem, ⟨0, _⟩ => ⟨S1x32x27008, .f32⟩
  | .local _ .vmem, ⟨1, _⟩ => ⟨S1x32x27008, .f32⟩
  | .local _ .vmem, ⟨2, _⟩ => ⟨S1x32x27008, .f32⟩
  | .local _ .vmem, ⟨3, _⟩ => ⟨S1x32x27008, .f32⟩
  | .local _ .vmem, ⟨4, _⟩ => ⟨S1x3x128, .f32⟩
  | .local _ .vmem, ⟨5, _⟩ => ⟨S1x3x128, .f32⟩
  | .local _ .vmem, ⟨6, _⟩ => ⟨S3x27008, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_cst_0 : Ref sig .tc := ⟨.hbm, 11, rfl⟩
abbrev main_v0_1 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_v0_0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v57 : BitVec 1 := Scalar.cmpi .eq arg1 c2_i32
  let v58 : BitVec 32 := Scalar.extui v57
  let c0_i32_19 : BitVec 32 := 0#32
  let v59 : BitVec 1 := Scalar.cmpi .ne v58 c0_i32_19
  v59

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v26 c3_i32
  let v28 : BitVec 32 := Scalar.addi v27 arg1
  let c2_i32 : BitVec 32 := 2#32
  let v29 : BitVec 32 := Scalar.minsi v28 c2_i32
  let c0_i32_11 : BitVec 32 := 0#32
  let c0_i32_12 : BitVec 32 := 0#32
  ![v16.toNat, c0_i32_11.toNat, v29.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v26 c3_i32
  let v28 : BitVec 32 := Scalar.addi v27 arg1
  let c2_i32 : BitVec 32 := 2#32
  let v29 : BitVec 32 := Scalar.minsi v28 c2_i32
  let c0_i32_11 : BitVec 32 := 0#32
  let c0_i32_12 : BitVec 32 := 0#32
  ![v16.toNat, c0_i32_11.toNat, v29.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x27008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x27008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x32x256x256_S16x32x65536 : S16x32x256x256.ShapeCasts S16x32x65536
  slices_S16x3x128_S16x3x1_0_0_0 : S16x3x128.Slices ![0, 0, 0] S16x3x1
  shapeCasts_S16x3x1_S16x3 : S16x3x1.ShapeCasts S16x3
  reducesTo_S16x3_S3_d0 : S16x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  inb_S3x27008_S3x27008_0_0 : ∀ a, (![0, 0] : Fin 2 → Nat) a + S3x27008.size a ≤ S3x27008.size a
  h_S3x27008 : 0 < S3x27008.numel
  shapeCasts_S3x27008_S3x27008 : S3x27008.ShapeCasts S3x27008
  inb_S1x32x27008_S1x32x27008_0_0_0 : ∀ a, (![0, 0, 0] : Fin 3 → Nat) a + S1x32x27008.size a ≤ S1x32x27008.size a
  h_S1x32x27008 : 0 < S1x32x27008.numel
  shapeCasts_S1x32x27008_S32x27008 : S1x32x27008.ShapeCasts S32x27008
  reduces_S32x27008_S27008 : S32x27008.Reduces [0] S27008
  shapeCasts_S27008_S1x27008 : S27008.ShapeCasts S1x27008
  broadcasts_S1x27008_S32x27008 : S1x27008.Broadcasts S32x27008
  slices_S32x27008_o0_0_S1x27008 : S32x27008.Slices ![0, 0] S1x27008
  iota_S1x27008_d1_w32 : S1x27008.Iotas .tc 32 [1]
  natLt_1_32 : 1 < 32
  concatenates_S1x27008_S1x27008_S1x27008_S3x27008_d0 : Shape.Concatenates [S1x27008, S1x27008, S1x27008] S3x27008 0
  reduces_S3x27008_S3 : S3x27008.Reduces [1] S3
  shapeCasts_S3_S3x1 : S3.ShapeCasts S3x1
  shapeCasts_S3x1_S3x1 : S3x1.ShapeCasts S3x1
  broadcasts_S3x1_S3x128 : S3x1.Broadcasts S3x128
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x32x27008.size a < S16x32x65536.size a
  hwx0_0 : ∀ i : grid0.Coords, EltTy.bits .f32 = 32 ∨ (Rect.unit (s := S16x32x65536) (fun a => cc0_transform_0 i a * S1x32x27008.size a) (fun a => (Pipeline.Clip.of (cc0_transform_0 i a) (S1x32x27008.size a) (S16x32x65536.size a)).extent (S1x32x27008.size a)) fun a => Pipeline.Clip.inb (Pipeline.Clip.ok_of (hstart0_0 i a))).WholeWords (EltTy.packing .f32)
  hwxs0_0 : ∀ i : grid0.Coords, EltTy.bits .f32 = 32 ∨ (Rect.unit (s := S1x32x27008) (fun _ => 0) (fun a => (Pipeline.Clip.of (cc0_transform_0 i a) (S1x32x27008.size a) (S16x32x65536.size a)).extent (S1x32x27008.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x32x27008.size a < S16x32x65536.size a
  hwx0_1 : ∀ i : grid0.Coords, EltTy.bits .f32 = 32 ∨ (Rect.unit (s := S16x32x65536) (fun a => cc0_transform_1 i a * S1x32x27008.size a) (fun a => (Pipeline.Clip.of (cc0_transform_1 i a) (S1x32x27008.size a) (S16x32x65536.size a)).extent (S1x32x27008.size a)) fun a => Pipeline.Clip.inb (Pipeline.Clip.ok_of (hstart0_1 i a))).WholeWords (EltTy.packing .f32)
  hwxs0_1 : ∀ i : grid0.Coords, EltTy.bits .f32 = 32 ∨ (Rect.unit (s := S1x32x27008) (fun _ => 0) (fun a => (Pipeline.Clip.of (cc0_transform_1 i a) (S1x32x27008.size a) (S16x32x65536.size a)).extent (S1x32x27008.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S16x3x128.size a
  hwx0_2 : ∀ i : grid0.Coords, EltTy.bits .f32 = 32 ∨ (Rect.block (s := S16x3x128) S1x3x128.size (cc0_transform_2 i) (hinb0_2 i)).WholeWords (EltTy.packing .f32)

variable [Facts₀]

abbrev win0_0 : Pipeline.Window sig grid0 :=
  Pipeline.Window.ofSpecClip (Memref.whole main_call0_v0) S1x32x27008.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S1x32x27008.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.Spec.lean ====
/-
  The shared specification of the two programs' results, with no program in sight.

  A pixel is a pair of 32-channel columns over the extended reals: `a` the logits, `b` the target
  (one-hot in intent; nothing here assumes it). Per pixel three quantities are accumulated:
    k = 0  the cross-entropy term  (M + log S) - L   where  L = ∑ c, b c * a c  (the target logit),
           M = the maximum of the a c folded from -∞,  S = ∑ c, exp (a c - M);
    k = 1  the indicator "correct": 1 when  L ≥ M  and  b 0 = 0,  else 0;
    k = 2  the indicator "counted": 1 when  b 0 = 0,  else 0.
  The totals are the sums of these over the 16 images and the 65536 pixels of each; the two results are the
  quotients  total 1 / total 2  (accuracy) and  total 0 / 2^20  (mean loss).
  Every term is spelled with the operations as the extended-real reading of the float operations gives them,
  so that either program's arithmetic, read at one pixel, is this term on the nose.
-/
import Mathlib
import Idealize.ShloMosaic.PureOps.Ideal
import Idealize.ShloMosaic.PureOps.Ideal.Laws
import Idealize.ShloMosaic.Lib.ValueIdx

noncomputable section

namespace Cert.Spec

open Idealize.ShloMosaic

/-- The maximum of a column's 32 entries, folded from the word of -∞. -/
def colMax (a : Fin 32 → EReal) : EReal :=
  (Finset.univ : Finset (Fin 32)).fold max (Ideal.ofBits .f32 0xFF800000#32) a

/-- The target logit: the sum over the channels of target times logit (in that order of the factors). -/
def tgtLogit (a b : Fin 32 → EReal) : EReal := ∑ c : Fin 32, b c * a c

/-- The sum of the exponentials of the logits, each shifted by the column maximum. -/
def sumExp (a : Fin 32 → EReal) : EReal := ∑ c : Fin 32, Ideal.exp (a c - colMax a)

/-- The one-bit word "channel 0 of the target is zero". -/
def bgZero (b : Fin 32 → EReal) : BitVec 1 := Ideal.cmp .oeq (b 0) (Ideal.ofBits .f32 0x00000000#32)

/-- The one-bit word "the target logit is at least the column maximum". -/
def hitMax (a b : Fin 32 → EReal) : BitVec 1 := Ideal.cmp .oge (tgtLogit a b) (colMax a)

/-- The three per-pixel quantities. -/
def px (k : Fin 3) (a b : Fin 32 → EReal) : EReal :=
  match k with
  | ⟨0, _⟩ => (colMax a + Ideal.log (sumExp a)) - tgtLogit a b
  | ⟨1, _⟩ => FloatOps.sitofp (F := Ideal) .f32 ((IntOp.andi (hitMax a b) (bgZero b)).setWidth 32)
  | ⟨2, _⟩ => FloatOps.sitofp (F := Ideal) .f32 ((bgZero b).setWidth 32)

theorem px_zero (a b : Fin 32 → EReal) : px 0 a b = (colMax a + Ideal.log (sumExp a)) - tgtLogit a b := rfl
theorem px_one (a b : Fin 32 → EReal) :
    px 1 a b = FloatOps.sitofp (F := Ideal) .f32 ((IntOp.andi (hitMax a b) (bgZero b)).setWidth 32) := rfl
theorem px_two (a b : Fin 32 → EReal) : px 2 a b = FloatOps.sitofp (F := Ideal) .f32 ((bgZero b).setWidth 32) := rfl

/-- The index type of the two 16 × 32 × 65536 arrays (image, channel, pixel). -/
abbrev Arr : Type := (⟨3, ![16, 32, 65536]⟩ : Shape).Idx → EReal

/-- The total of quantity `k` over every pixel of every image. -/
def T (A B : Arr) (k : Fin 3) : EReal :=
  ∑ n : Fin 16, ∑ p : Fin 65536,
    px k (fun c => A (ValueIdx.ix3 n c p)) (fun c => B (ValueIdx.ix3 n c p))

/-- The accuracy: correct over counted, as a rank-0 array. -/
def resAcc (t : Fin 3 → EReal) : (⟨0, ![]⟩ : Shape).Idx → EReal := fun _ => Ideal.div (t 1) (t 2)

/-- The mean loss: the cross-entropy total over 2^20 (the word 0x49800000), as a rank-0 array. -/
def resLoss (t : Fin 3 → EReal) : (⟨0, ![]⟩ : Shape).Idx → EReal :=
  fun _ => Ideal.div (t 0) (Ideal.ofBits .f32 0x49800000#32)

end Cert.Spec

end
-- ==== Proof.KPay.lean ====
/-
  The body's arithmetic read at one lane.

  Each stored payload of the kernel body is a pure function of the two input blocks (1 × 32 × 16384:
  one image's 32 channels on 16384 lanes) and of the scratch rows read before it. Read at lane `l`
  at the extended reals, rows 0, 1, 2 of the scratch receive  old + px k (column l of the logits block)
  (column l of the target block), and the output block receives, in row k at every lane, the sum of
  scratch row k over its 16384 lanes. The proofs push the index through the pointwise operations by
  unfolding, and through each layout operation and each reduction by its read-at-an-index lemma.
-/
import proofs.«163244_g2000502686089012_pallasbulk_752_2_alg».proof.Proof.Gen.KernelIdeal.Skeleton
import proofs.«163244_g2000502686089012_pallasbulk_752_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx Cert.KernelIdeal Cert.KernelIdeal.Gen Cert.Spec

/-- Column `l` of a 1 × 32 × 16384 block: its 32 channel entries. -/
abbrev col (x : Vec Ideal S1x32x16384 .f32) (l : Fin 16384) : Fin 32 → EReal :=
  fun c => x (ix3 (0 : Fin 1) c l)

theorem log_apply {s : Shape} {φ : FTy} (a : FVec Ideal s φ) (i : s.Idx) : log a i = Ideal.log (a i) := rfl
theorem andi_apply {s : Shape} {w : Nat} (a b : IVec s w) (i : s.Idx) : andi a b i = IntOp.andi (a i) (b i) := rfl

/-- Over lane `l` of the reduced shape, the source index with channel `k` inserted is `(k, l)`. -/
theorem lift_chan (h : S32x16384.Reduces [0] S16384) (l : Fin 16384) (k : Fin 32) :
    h.lift (ix1 l) k = ix2 k l := by
  funext c
  match c with
  | ⟨0, _⟩ => rfl
  | ⟨1, _⟩ => rfl

theorem pay5_apply (x : Vec Ideal S1x32x16384 .f32) (c : Fin 32) (l : Fin 16384) :
    k0_pay5 x (ix2 c l) = x (ix3 (0 : Fin 1) c l) := by
  unfold k0_pay5
  exact shapeCast_1ab_ab_apply x _ c l

theorem pay6_apply (x : Vec Ideal S1x32x16384 .f32) (c : Fin 32) (l : Fin 16384) :
    k0_pay6 x (ix2 c l) = x (ix3 (0 : Fin 1) c l) := by
  unfold k0_pay6
  exact shapeCast_1ab_ab_apply x _ c l

theorem pay5_lift (x : Vec Ideal S1x32x16384 .f32) (l : Fin 16384) (k : Fin (S32x16384.size 0)) :
    k0_pay5 x (reduces_S32x16384_S16384.lift (ix1 l) k) = x (ix3 (0 : Fin 1) k l) :=
  (congrArg (k0_pay5 x) (lift_chan _ l k)).trans (pay5_apply x k l)

theorem pay6_lift (x : Vec Ideal S1x32x16384 .f32) (l : Fin 16384) (k : Fin (S32x16384.size 0)) :
    k0_pay6 x (reduces_S32x16384_S16384.lift (ix1 l) k) = x (ix3 (0 : Fin 1) k l) :=
  (congrArg (k0_pay6 x) (lift_chan _ l k)).trans (pay6_apply x k l)

/-- The target logit at lane `l`. -/
theorem pay7_apply (x0 x1 : Vec Ideal S1x32x16384 .f32) (u : Fin 1) (l : Fin 16384) :
    k0_pay7 x0 x1 (ix2 u l) = tgtLogit (col x0 l) (col x1 l) := by
  unfold k0_pay7 tgtLogit
  refine (shapeCast_a_1a_apply _ _ u l).trans ?_
  refine (Ideal.multiReduction_add_single _ _ _ _ _ _).trans ?_
  refine Finset.sum_congr rfl fun k _ => ?_
  exact congrArg₂ (· * ·) (pay6_lift x1 l k) (pay5_lift x0 l k)

/-- The column maximum at lane `l`. -/
theorem pay8_apply (x0 : Vec Ideal S1x32x16384 .f32) (u : Fin 1) (l : Fin 16384) :
    k0_pay8 x0 (ix2 u l) = colMax (col x0 l) := by
  unfold k0_pay8 colMax
  refine (shapeCast_a_1a_apply _ _ u l).trans ?_
  refine (Ideal.multiReduction_maximumf_single _ _ _ _ _ _).trans ?_
  have e : (k0_pay5 x0 ∘ reduces_S32x16384_S16384.lift (ix1 l)) = col x0 l := funext fun k => by
    exact pay5_lift x0 l k
  exact congrArg (fun f => Finset.fold max _ f Finset.univ) e

/-- The sum of the shifted exponentials at lane `l`. -/
theorem sumExp_apply (x0 : Vec Ideal S1x32x16384 .f32) (u : Fin 1) (l : Fin 16384) :
    shapeCast S1x16384 (multiReduction .add [0] S16384
        (exp (subf (k0_pay5 x0) (broadcastTo S32x16384 (k0_pay8 x0) broadcasts_S1x16384_S32x16384)))
        0x00000000#32 reduces_S32x16384_S16384 (.inl rfl) rfl) shapeCasts_S16384_S1x16384 (ix2 u l)
      = sumExp (col x0 l) := by
  unfold sumExp
  refine (shapeCast_a_1a_apply _ _ u l).trans ?_
  refine (Ideal.multiReduction_add_single _ _ _ _ _ _).trans ?_
  refine Finset.sum_congr rfl fun k _ => ?_
  have hb : broadcastTo S32x16384 (k0_pay8 x0) broadcasts_S1x16384_S32x16384 (reduces_S32x16384_S16384.lift (ix1 l) k)
      = colMax (col x0 l) :=
    (congrArg (broadcastTo S32x16384 (k0_pay8 x0) broadcasts_S1x16384_S32x16384) (lift_chan _ l k)).trans
      ((broadcastTo_1b_ab_apply (k0_pay8 x0) _ k l).trans (pay8_apply x0 0 l))
  exact congrArg Ideal.exp (congrArg₂ (· - ·) (pay5_lift x0 l k) hb)

/-- Row 0's payload at lane `l`: the old entry plus the cross-entropy term of the pixel. -/
theorem pay10_apply (x0 x1 : Vec Ideal S1x32x16384 .f32) (s : Vec Ideal S1x16384 .f32) (u : Fin 1) (l : Fin 16384) :
    k0_pay10 x0 x1 s (ix2 u l) = s (ix2 u l) + px 0 (col x0 l) (col x1 l) := by
  unfold k0_pay10
  rw [shapeCast_self]
  rw [addf_apply, subf_apply, addf_apply, log_apply, pay8_apply, sumExp_apply, pay7_apply, px_zero]

/-- The word "channel 0 of the target is zero" at lane `l`. -/
theorem pay9_apply (x1 : Vec Ideal S1x32x16384 .f32) (u : Fin 1) (l : Fin 16384) :
    k0_pay9 x1 (ix2 u l) = bgZero (col x1 l) := by
  unfold k0_pay9 bgZero
  have hs : extractStridedSlice S1x16384 ![0, 0] (k0_pay6 x1) slices_S32x16384_o0_0_S1x16384 (ix2 u l)
      = x1 (ix3 (0 : Fin 1) (0 : Fin 32) l) :=
    (extractStridedSlice_apply ![0, 0] (k0_pay6 x1) _ (ix2 u l) (ix2 (0 : Fin 32) l) fun a =>
      match a with
      | ⟨0, _⟩ => by show 0 = 0 + u.val; omega
      | ⟨1, _⟩ => by show l.val = 0 + l.val; omega).trans (pay6_apply x1 0 l)
  exact congrArg (Ideal.cmp .oeq · (Ideal.ofBits .f32 0x00000000#32)) hs

/-- Row 1's value at lane `l`: the old entry plus the "correct" indicator of the pixel. -/
theorem pay11_apply (x0 x1 : Vec Ideal S1x32x16384 .f32) (s : Vec Ideal S1x16384 .f32) (u : Fin 1) (l : Fin 16384) :
    k0_pay11 x0 x1 s (ix2 u l) = s (ix2 u l) + px 1 (col x0 l) (col x1 l) := by
  unfold k0_pay11
  rw [addf_apply, sitofp_apply, extui_apply, andi_apply, cmpf_apply, pay7_apply, pay8_apply, pay9_apply, px_one]
  rfl

theorem pay1_eq (v : FVec Ideal S1x16384 .f32) : k0_pay1 v = v := by
  unfold k0_pay1
  exact shapeCast_self _ _

/-- Row 2's payload at lane `l`, from the one-bit word `q` the first part of the body hands on. -/
theorem pay2_apply (q : IVec S1x16384 1) (s : Vec Ideal S1x16384 .f32) (j : S1x16384.Idx) :
    k0_pay2 q s j = s j + FloatOps.sitofp (F := Ideal) .f32 ((q j).setWidth 32) := by
  unfold k0_pay2
  rw [shapeCast_self]
  rfl

/-- The reset payload is zero everywhere. -/
theorem pay4_apply (j : S3x16384.Idx) : k0_pay4 (F := Ideal) j = 0 := by
  unfold k0_pay4
  rw [shapeCast_self]
  exact Ideal.ofBits_zero_f32

/-- Over row `k` of the reduced shape, the source index with lane `l` inserted is `(k, l)`. -/
theorem lift_lane (h : S3x16384.Reduces [1] S3) (k : Fin 3) (l : Fin 16384) :
    h.lift (ix1 k) l = ix2 k l := by
  funext c
  match c with
  | ⟨0, _⟩ => rfl
  | ⟨1, _⟩ => rfl

/-- A vector cast to a one-column matrix reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its lanes reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The output block's payload: row `k`, at every lane `j`, is the sum of scratch row `k` over its lanes. -/
theorem pay3_apply (S : Vec Ideal S3x16384 .f32) (u : Fin 1) (k : Fin 3) (j : Fin 128) :
    k0_pay3 S (ix3 u k j) = ∑ l : Fin 16384, S (ix2 k l) := by
  unfold k0_pay3
  refine (shapeCast_ab_1ab_apply _ _ u k j).trans ?_
  refine (broadcastTo_a1_ab_apply _ _ k j).trans ?_
  refine (congrFun (shapeCast_self _ _) _).trans ?_
  refine (shapeCast_a_a1_apply _ _ k 0).trans ?_
  refine (Ideal.multiReduction_add_single _ _ _ _ _ _).trans ?_
  exact Finset.sum_congr rfl fun l _ => congrArg S (lift_lane _ k l)

end Cert.KernelIdeal.KPay

end
-- ==== Proof.KPiece.lean ====
/-
  What one run of the body leaves, case by case, as a list of stores.

  In every case the body ends with three row stores into the 3 × 16384 scratch: row 2 receives
  (old row 2) + counted, row 1 (old row 1) + correct, row 0 (old row 0) + cross-entropy term, each
  computed lane by lane from the two input blocks. At a slab's first step the rows read before are
  those of a scratch just filled with zeros; at its last step the output block receives, after the
  row stores, the lane sums of the three rows. Read at entry (k, l), the canonical contents of such
  a list are  (the row-k value read before, at lane l) + px k (column l of the two blocks).
-/
import proofs.«163244_g2000502686089012_pallasbulk_752_2_alg».proof.Proof.Gen.KernelIdeal.Frame
import proofs.«163244_g2000502686089012_pallasbulk_752_2_alg».proof.Proof.KPay
import Idealize.ShloMosaic.Lib.Pipeline.Value
import Idealize.ShloMosaic.Lib.Tactic

set_option maxRecDepth 16384

noncomputable section

namespace Cert.KernelIdeal.KPiece

open Idealize.ShloMosaic Idealize.ShloMosaic.TcCoe Idealize.ShloMosaic.Tactic Idealize.ShloMosaic.ValueIdx
open Idealize.SL.Sem
open Cert.KernelIdeal Cert.KernelIdeal.Gen Cert.KernelIdeal.KPay Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

/-- Row `k` of the scratch as a rectangle. -/
abbrev R0 : Rect S3x16384 := Rect.unit ![0, 0] ![1, 16384] inb_S3x16384_S1x16384_0_0
abbrev R1 : Rect S3x16384 := Rect.unit ![1, 0] ![1, 16384] inb_S3x16384_S1x16384_1_0
abbrev R2 : Rect S3x16384 := Rect.unit ![2, 0] ![1, 16384] inb_S3x16384_S1x16384_2_0
/-- The whole scratch as a rectangle. -/
abbrev RW : Rect S3x16384 := Rect.unit ![0, 0] ![3, 16384] inb_S3x16384_S3x16384_0_0

section Generic
variable {F : FTy → Type} [FloatOps F]

/-- The three row stores of one step (last first), over the rows `r0 r1 r2` read before them, after the
    earlier stores `L`. -/
abbrev rowsL (x0 x1 : Vec F S1x32x16384 .f32) (r0 r1 r2 : Vec F S1x16384 .f32)
    (L : List (View.Piece (Elt F) S3x16384 .f32)) : List (View.Piece (Elt F) S3x16384 .f32) :=
  ⟨R2, k0_pay2 (k0_pay9 x1) r2⟩ :: ⟨R1, k0_pay1 (k0_pay11 x0 x1 r1)⟩ :: ⟨R0, k0_pay10 x0 x1 r0⟩ :: L

/-- A middle step leaves the three row stores over the rows of the scratch as it found it. -/
theorem sout_B_eq (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : ¬cond0_1 i)
    (x0 x1 : Vec F S1x32x16384 .f32) (xs0 : Vec F S3x16384 .f32) :
    sout0_B_0 c i a2 h2 a3 h3 a4 h4 a5 h5 hc0 hc1 x0 x1 xs0
      = View.canon (rowsL x0 x1 (View.ld xs0 R0) (View.ld xs0 R1) (View.ld xs0 R2) []) := by
  unfold sout0_B_0
  rw [View.read_writes_eq_canon _ _ _ (scover0_B_0 c i a2 h2 a3 h3 a4 h4 a5 h5 hc0 hc1 x0 x1 xs0)]
  unfold kernelRun0_B
  dsimp only
  sl_unfold_words
  simp only [View.readAt_eq_ld, h2.read_unread, h3.read_unread, h5.read_unread,
    View.ld_unit_zero (S := S1x32x16384) hz3]

/-- A slab's last step leaves the same in the scratch, -/
theorem sout_C_eq (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : cond0_1 i)
    (x0 x1 : Vec F S1x32x16384 .f32) (xs0 : Vec F S3x16384 .f32) :
    sout0_C_0 c i a2 h2 a3 h3 a4 h4 a5 h5 hc0 hc1 x0 x1 xs0
      = View.canon (rowsL x0 x1 (View.ld xs0 R0) (View.ld xs0 R1) (View.ld xs0 R2) []) := by
  unfold sout0_C_0
  rw [View.read_writes_eq_canon _ _ _ (scover0_C_0 c i a2 h2 a3 h3 a4 h4 a5 h5 hc0 hc1 x0 x1 xs0)]
  unfold kernelRun0_C
  dsimp only
  sl_unfold_words
  simp only [View.readAt_eq_ld, h2.read_unread, h3.read_unread, h5.read_unread,
    View.ld_unit_zero (S := S1x32x16384) hz3]

/-- and in the output block the lane sums of what it left in the scratch. -/
theorem out_C_eq (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : cond0_1 i)
    (x0 x1 : Vec F S1x32x16384 .f32) (xs0 : Vec F S3x16384 .f32) :
    out0_C_2 c i a2 h2 a3 h3 a4 h4 a5 h5 hc0 hc1 x0 x1 xs0
      = k0_pay3 (View.canon (rowsL x0 x1 (View.ld xs0 R0) (View.ld xs0 R1) (View.ld xs0 R2) [])) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread,
    View.ld_unit_zero (S := S1x32x16384) hz3, View.readCov_eq_canon']
  exact congrArg k0_pay3 (View.ld_unit_zero (S := S3x16384) hz2 _ _)

/-- The rows a slab's first step reads back: each from the scratch as the stores before it left it. -/
abbrev zr0 : Vec F S1x16384 .f32 :=
  fun j => View.canon [(⟨RW, k0_pay4⟩ : View.Piece (Elt F) S3x16384 .f32)] (R0.idx j)
abbrev zr1 (x0 x1 : Vec F S1x32x16384 .f32) : Vec F S1x16384 .f32 :=
  fun j => View.canon [(⟨R0, k0_pay10 x0 x1 zr0⟩ : View.Piece (Elt F) S3x16384 .f32), ⟨RW, k0_pay4⟩] (R1.idx j)
abbrev zr2 (x0 x1 : Vec F S1x32x16384 .f32) : Vec F S1x16384 .f32 :=
  fun j => View.canon [(⟨R1, k0_pay1 (k0_pay11 x0 x1 (zr1 x0 x1))⟩ : View.Piece (Elt F) S3x16384 .f32),
    ⟨R0, k0_pay10 x0 x1 zr0⟩, ⟨RW, k0_pay4⟩] (R2.idx j)

/-- A slab's first step: the zero fill, then the three row stores over rows read back from it. -/
theorem sout_A_eq (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : cond0_0 i) (hc1 : ¬cond0_1 i)
    (x0 x1 : Vec F S1x32x16384 .f32) :
    sout0_A_0 c i a2 h2 a3 h3 a4 h4 a5 h5 hc0 hc1 x0 x1
      = View.canon (rowsL x0 x1 zr0 (zr1 x0 x1) (zr2 x0 x1) [⟨RW, k0_pay4⟩]) := by
  unfold sout0_A_0
  rw [View.read_writes_eq_canon _ _ _ (scover0_A_0 c i a2 h2 a3 h3 a4 h4 a5 h5 hc0 hc1 x0 x1)]
  unfold kernelRun0_A
  dsimp only
  sl_unfold_words
  simp only [View.readAt_eq_ld, h2.read_unread, h3.read_unread,
    View.ld_unit_zero (S := S1x32x16384) hz3, View.readCov_eq_canon']
  rfl

end Generic

/-! ## Read at an entry, over the extended reals -/

theorem emb_R0 (l : Fin 16384) : R0.emb (ix2 (0 : Fin 1) l) = ix2 (0 : Fin 3) l := by
  funext a; apply Fin.ext
  match a with
  | ⟨0, _⟩ => rfl
  | ⟨1, _⟩ => show 0 + 1 * l.val = l.val; omega
theorem emb_R1 (l : Fin 16384) : R1.emb (ix2 (0 : Fin 1) l) = ix2 (1 : Fin 3) l := by
  funext a; apply Fin.ext
  match a with
  | ⟨0, _⟩ => rfl
  | ⟨1, _⟩ => show 0 + 1 * l.val = l.val; omega
theorem emb_R2 (l : Fin 16384) : R2.emb (ix2 (0 : Fin 1) l) = ix2 (2 : Fin 3) l := by
  funext a; apply Fin.ext
  match a with
  | ⟨0, _⟩ => rfl
  | ⟨1, _⟩ => show 0 + 1 * l.val = l.val; omega

theorem not_mem_R0 (y : S3x16384.Idx) (h : 0 < (y 0).val) : y ∉ R0.set := fun hm => by
  have h0 : (y 0).val < 0 + 1 := ((Rect.mem_set_unit.mp hm) 0).2
  omega
theorem not_mem_R1 (y : S3x16384.Idx) (h : (y 0).val ≠ 1) : y ∉ R1.set := fun hm => by
  have h0 : 1 ≤ (y 0).val := ((Rect.mem_set_unit.mp hm) 0).1
  have h1 : (y 0).val < 1 + 1 := ((Rect.mem_set_unit.mp hm) 0).2
  omega
theorem not_mem_R2 (y : S3x16384.Idx) (h : (y 0).val < 2) : y ∉ R2.set := fun hm => by
  have h0 : 2 ≤ (y 0).val := ((Rect.mem_set_unit.mp hm) 0).1
  omega

/-- Under a store into row `k`, the canonical contents at `(k, l)` are the payload at lane `l`; -/
theorem canon_hit_R0 (w : Vec Ideal S1x16384 .f32) (L : List (View.Piece (Elt Ideal) S3x16384 .f32)) (l : Fin 16384) :
    View.canon ((⟨R0, w⟩ : View.Piece (Elt Ideal) S3x16384 .f32) :: L) (ix2 (0 : Fin 3) l) = w (ix2 (0 : Fin 1) l) :=
  (congrArg (View.canon ((⟨R0, w⟩ : View.Piece (Elt Ideal) S3x16384 .f32) :: L)) (emb_R0 l).symm).trans
    (View.canon_cons_emb R0 w L (ix2 (0 : Fin 1) l))
theorem canon_hit_R1 (w : Vec Ideal S1x16384 .f32) (L : List (View.Piece (Elt Ideal) S3x16384 .f32)) (l : Fin 16384) :
    View.canon ((⟨R1, w⟩ : View.Piece (Elt Ideal) S3x16384 .f32) :: L) (ix2 (1 : Fin 3) l) = w (ix2 (0 : Fin 1) l) :=
  (congrArg (View.canon ((⟨R1, w⟩ : View.Piece (Elt Ideal) S3x16384 .f32) :: L)) (emb_R1 l).symm).trans
    (View.canon_cons_emb R1 w L (ix2 (0 : Fin 1) l))
theorem canon_hit_R2 (w : Vec Ideal S1x16384 .f32) (L : List (View.Piece (Elt Ideal) S3x16384 .f32)) (l : Fin 16384) :
    View.canon ((⟨R2, w⟩ : View.Piece (Elt Ideal) S3x16384 .f32) :: L) (ix2 (2 : Fin 3) l) = w (ix2 (0 : Fin 1) l) :=
  (congrArg (View.canon ((⟨R2, w⟩ : View.Piece (Elt Ideal) S3x16384 .f32) :: L)) (emb_R2 l).symm).trans
    (View.canon_cons_emb R2 w L (ix2 (0 : Fin 1) l))

/-- off that row, those of the earlier stores. -/
theorem canon_skip_R0 (w : Vec Ideal S1x16384 .f32) (L : List (View.Piece (Elt Ideal) S3x16384 .f32)) (y : S3x16384.Idx) (h : 0 < (y 0).val) :
    View.canon ((⟨R0, w⟩ : View.Piece (Elt Ideal) S3x16384 .f32) :: L) y = View.canon L y :=
  View.canon_cons_of_not_mem (⟨R0, w⟩ : View.Piece (Elt Ideal) S3x16384 .f32) L (not_mem_R0 y h)
theorem canon_skip_R1 (w : Vec Ideal S1x16384 .f32) (L : List (View.Piece (Elt Ideal) S3x16384 .f32)) (y : S3x16384.Idx) (h : (y 0).val ≠ 1) :
    View.canon ((⟨R1, w⟩ : View.Piece (Elt Ideal) S3x16384 .f32) :: L) y = View.canon L y :=
  View.canon_cons_of_not_mem (⟨R1, w⟩ : View.Piece (Elt Ideal) S3x16384 .f32) L (not_mem_R1 y h)
theorem canon_skip_R2 (w : Vec Ideal S1x16384 .f32) (L : List (View.Piece (Elt Ideal) S3x16384 .f32)) (y : S3x16384.Idx) (h : (y 0).val < 2) :
    View.canon ((⟨R2, w⟩ : View.Piece (Elt Ideal) S3x16384 .f32) :: L) y = View.canon L y :=
  View.canon_cons_of_not_mem (⟨R2, w⟩ : View.Piece (Elt Ideal) S3x16384 .f32) L (not_mem_R2 y h)

/-- The three row stores read at `(k, l)`: the row value read before plus the pixel's quantity `k`. -/
theorem canon_rows_apply (x0 x1 : Vec Ideal S1x32x16384 .f32) (r0 r1 r2 : Vec Ideal S1x16384 .f32)
    (L : List (View.Piece (Elt Ideal) S3x16384 .f32)) (l : Fin 16384) :
    View.canon (rowsL x0 x1 r0 r1 r2 L) (ix2 (0 : Fin 3) l) = r0 (ix2 0 l) + px 0 (col x0 l) (col x1 l)
    ∧ View.canon (rowsL x0 x1 r0 r1 r2 L) (ix2 (1 : Fin 3) l) = r1 (ix2 0 l) + px 1 (col x0 l) (col x1 l)
    ∧ View.canon (rowsL x0 x1 r0 r1 r2 L) (ix2 (2 : Fin 3) l) = r2 (ix2 0 l) + px 2 (col x0 l) (col x1 l) := by
  refine ⟨?_, ?_, ?_⟩
  · refine (canon_skip_R2 (k0_pay2 (k0_pay9 x1) r2) _ (ix2 (0 : Fin 3) l) (show (0 : ℕ) < 2 by omega)).trans ?_
    refine (canon_skip_R1 (k0_pay1 (k0_pay11 x0 x1 r1)) _ (ix2 (0 : Fin 3) l) (show (0 : ℕ) ≠ 1 by omega)).trans ?_
    exact (canon_hit_R0 (k0_pay10 x0 x1 r0) L l).trans (pay10_apply x0 x1 r0 0 l)
  · refine (canon_skip_R2 (k0_pay2 (k0_pay9 x1) r2) _ (ix2 (1 : Fin 3) l) (show (1 : ℕ) < 2 by omega)).trans ?_
    refine (canon_hit_R1 (k0_pay1 (k0_pay11 x0 x1 r1)) _ l).trans ?_
    exact (congrFun (pay1_eq (k0_pay11 x0 x1 r1)) (ix2 (0 : Fin 1) l)).trans (pay11_apply x0 x1 r1 0 l)
  · refine (canon_hit_R2 (k0_pay2 (k0_pay9 x1) r2) _ l).trans ?_
    refine (pay2_apply (k0_pay9 x1) r2 (ix2 (0 : Fin 1) l)).trans ?_
    rw [pay9_apply, px_two]

/-- A row of contents `xs0` read through its rectangle, at lane `l`. -/
theorem ld_R0 (xs0 : Vec Ideal S3x16384 .f32) (l : Fin 16384) :
    View.ld xs0 R0 (ix2 (0 : Fin 1) l) = xs0 (ix2 (0 : Fin 3) l) := congrArg xs0 (emb_R0 l)
theorem ld_R1 (xs0 : Vec Ideal S3x16384 .f32) (l : Fin 16384) :
    View.ld xs0 R1 (ix2 (0 : Fin 1) l) = xs0 (ix2 (1 : Fin 3) l) := congrArg xs0 (emb_R1 l)
theorem ld_R2 (xs0 : Vec Ideal S3x16384 .f32) (l : Fin 16384) :
    View.ld xs0 R2 (ix2 (0 : Fin 1) l) = xs0 (ix2 (2 : Fin 3) l) := congrArg xs0 (emb_R2 l)

/-- ONE STEP over scratch contents `xs0`: entry `(k, l)` gains the pixel's quantity `k`. -/
theorem rows_step_apply (x0 x1 : Vec Ideal S1x32x16384 .f32) (xs0 : Vec Ideal S3x16384 .f32)
    (k : Fin 3) (l : Fin 16384) :
    View.canon (rowsL x0 x1 (View.ld xs0 R0) (View.ld xs0 R1) (View.ld xs0 R2) []) (ix2 k l)
      = xs0 (ix2 k l) + px k (col x0 l) (col x1 l) := by
  obtain ⟨e0, e1, e2⟩ := canon_rows_apply x0 x1 (View.ld xs0 R0) (View.ld xs0 R1) (View.ld xs0 R2) [] l
  match k with
  | ⟨0, _⟩ => exact e0.trans (congrArg (· + px 0 (col x0 l) (col x1 l)) (ld_R0 xs0 l))
  | ⟨1, _⟩ => exact e1.trans (congrArg (· + px 1 (col x0 l) (col x1 l)) (ld_R1 xs0 l))
  | ⟨2, _⟩ => exact e2.trans (congrArg (· + px 2 (col x0 l) (col x1 l)) (ld_R2 xs0 l))

/-- The zero fill reads zero everywhere, -/
theorem canonW_apply (y : S3x16384.Idx) : View.canon [(⟨RW, k0_pay4 (F := Ideal)⟩ : View.Piece (Elt Ideal) S3x16384 .f32)] y = 0 :=
  (congrFun (View.canon_unit_zero (Val := Elt Ideal) (S := S3x16384) (e := .f32) hz2 inb_S3x16384_S3x16384_0_0
    (k0_pay4 (F := Ideal))) y).trans (pay4_apply y)

/-- so each row a slab's first step reads back is zero. -/
theorem zr0_apply (j : S1x16384.Idx) : zr0 (F := Ideal) j = 0 := canonW_apply _
theorem zr1_apply (x0 x1 : Vec Ideal S1x32x16384 .f32) (j : S1x16384.Idx) : zr1 x0 x1 j = 0 :=
  (canon_skip_R0 (k0_pay10 x0 x1 zr0) [(⟨RW, k0_pay4 (F := Ideal)⟩ : View.Piece (Elt Ideal) S3x16384 .f32)] (R1.idx j)
    (show 0 < 1 + 1 * (j 0).val by omega)).trans (canonW_apply _)
theorem zr2_apply (x0 x1 : Vec Ideal S1x32x16384 .f32) (j : S1x16384.Idx) : zr2 x0 x1 j = 0 :=
  (canon_skip_R1 (k0_pay1 (k0_pay11 x0 x1 (zr1 x0 x1))) [(⟨R0, k0_pay10 x0 x1 zr0⟩ : View.Piece (Elt Ideal) S3x16384 .f32), ⟨RW, k0_pay4 (F := Ideal)⟩] (R2.idx j)
    (show 2 + 1 * (j 0).val ≠ 1 by omega)).trans
    ((canon_skip_R0 (k0_pay10 x0 x1 zr0) [(⟨RW, k0_pay4 (F := Ideal)⟩ : View.Piece (Elt Ideal) S3x16384 .f32)] (R2.idx j)
      (show 0 < 2 + 1 * (j 0).val by omega)).trans (canonW_apply _))

/-- A SLAB'S FIRST STEP: entry `(k, l)` is zero plus the pixel's quantity `k`. -/
theorem rows_first_apply (x0 x1 : Vec Ideal S1x32x16384 .f32) (k : Fin 3) (l : Fin 16384) :
    View.canon (rowsL x0 x1 zr0 (zr1 x0 x1) (zr2 x0 x1) [(⟨RW, k0_pay4 (F := Ideal)⟩ : View.Piece (Elt Ideal) S3x16384 .f32)]) (ix2 k l)
      = 0 + px k (col x0 l) (col x1 l) := by
  obtain ⟨e0, e1, e2⟩ := canon_rows_apply x0 x1 zr0 (zr1 x0 x1) (zr2 x0 x1) [(⟨RW, k0_pay4 (F := Ideal)⟩ : View.Piece (Elt Ideal) S3x16384 .f32)] l
  match k with
  | ⟨0, _⟩ => exact e0.trans (congrArg (· + px 0 (col x0 l) (col x1 l)) (zr0_apply _))
  | ⟨1, _⟩ => exact e1.trans (congrArg (· + px 1 (col x0 l) (col x1 l)) (zr1_apply x0 x1 _))
  | ⟨2, _⟩ => exact e2.trans (congrArg (· + px 2 (col x0 l) (col x1 l)) (zr2_apply x0 x1 _))

/-! ## The cases, read at an entry -/

/-- A slab's first step leaves `0 + px k` at `(k, l)`. -/
theorem sout_A_apply (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : cond0_0 i) (hc1 : ¬cond0_1 i)
    (x0 x1 : Vec Ideal S1x32x16384 .f32) (k : Fin 3) (l : Fin 16384) :
    sout0_A_0 c i a2 h2 a3 h3 a4 h4 a5 h5 hc0 hc1 x0 x1 (ix2 k l) = 0 + px k (col x0 l) (col x1 l) :=
  (congrFun (sout_A_eq c i a2 h2 a3 h3 a4 h4 a5 h5 hc0 hc1 x0 x1) (ix2 k l)).trans (rows_first_apply x0 x1 k l)

/-- A middle step adds `px k` at `(k, l)`. -/
theorem sout_B_apply (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : ¬cond0_1 i)
    (x0 x1 : Vec Ideal S1x32x16384 .f32) (xs0 : Vec Ideal S3x16384 .f32) (k : Fin 3) (l : Fin 16384) :
    sout0_B_0 c i a2 h2 a3 h3 a4 h4 a5 h5 hc0 hc1 x0 x1 xs0 (ix2 k l) = xs0 (ix2 k l) + px k (col x0 l) (col x1 l) :=
  (congrFun (sout_B_eq c i a2 h2 a3 h3 a4 h4 a5 h5 hc0 hc1 x0 x1 xs0) (ix2 k l)).trans (rows_step_apply x0 x1 xs0 k l)

/-- A slab's last step does the same, -/
theorem sout_C_apply (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : cond0_1 i)
    (x0 x1 : Vec Ideal S1x32x16384 .f32) (xs0 : Vec Ideal S3x16384 .f32) (k : Fin 3) (l : Fin 16384) :
    sout0_C_0 c i a2 h2 a3 h3 a4 h4 a5 h5 hc0 hc1 x0 x1 xs0 (ix2 k l) = xs0 (ix2 k l) + px k (col x0 l) (col x1 l) :=
  (congrFun (sout_C_eq c i a2 h2 a3 h3 a4 h4 a5 h5 hc0 hc1 x0 x1 xs0) (ix2 k l)).trans (rows_step_apply x0 x1 xs0 k l)

/-- and leaves in the output block, in row `k` at every lane, the lane sum of scratch row `k` as it has just left it. -/
theorem out_C_apply (c : Dev nD) (i : grid0.Coords) (a2 : Memref sig .tc .vmem S1x32x16384 .f32) (h2 : a2.IsWhole) (a3 : Memref sig .tc .vmem S1x32x16384 .f32) (h3 : a3.IsWhole) (a4 : Memref sig .tc .vmem S1x3x128 .f32) (h4 : a4.IsWhole) (a5 : Memref sig .tc .vmem S3x16384 .f32) (h5 : a5.IsWhole) (hc0 : ¬cond0_0 i) (hc1 : cond0_1 i)
    (x0 x1 : Vec Ideal S1x32x16384 .f32) (xs0 : Vec Ideal S3x16384 .f32) (u : Fin 1) (k : Fin 3) (j : Fin 128) :
    out0_C_2 c i a2 h2 a3 h3 a4 h4 a5 h5 hc0 hc1 x0 x1 xs0 (ix3 u k j)
      = ∑ l : Fin 16384, sout0_C_0 c i a2 h2 a3 h3 a4 h4 a5 h5 hc0 hc1 x0 x1 xs0 (ix2 k l) := by
  refine (congrFun (out_C_eq c i a2 h2 a3 h3 a4 h4 a5 h5 hc0 hc1 x0 x1 xs0) (ix3 u k j)).trans ?_
  refine (pay3_apply _ u k j).trans ?_
  exact Finset.sum_congr rfl fun l _ =>
    (congrFun (sout_C_eq c i a2 h2 a3 h3 a4 h4 a5 h5 hc0 hc1 x0 x1 xs0) (ix2 k l)).symm

end Cert.KernelIdeal.KPiece

end
-- ==== Proof.LibTileSums.lean ====
/-
# Re-tiling of finite double sums in a commutative additive monoid

Two ways of adding up the same per-pixel quantity `g n p` over `n < 16` images and
`p < 65536` pixels give the same total, using only that addition is commutative and
associative (no cancellation, no distributivity):

* `sum_range_mul`      : a sum over `a < A`, `b < B` of `f (a * B + b)` is the sum of `f` over `range (A * B)`.
* `sum_div_mod`        : a sum over `τ < B * C` of `h (τ / C) (τ % C)` is the double sum of `h` over `range B`, `range C`.
* `sum_slabs_general`, `sum_slabs`   : the slab tiling `(s, l, τ) ↦ (8 s + τ / 4, (τ % 4) * 16384 + l)`.
* `sum_masked_general`, `sum_masked` : the masked tiling `(l, τ) ↦ τ * 27008 + l`, terms past the end replaced by `0`.
* `sum_slabs_fin`, `sum_masked_fin` : the same two statements with `Fin` index types.
* `running_sum`        : a sequence with `acc 0 = f 0`, `acc (k+1) = acc k + f (k+1)` is the partial sum of `f`.
* `running_sum_restart`: the same when the recursion restarts at every multiple of a period `P`.
-/
import Mathlib.Algebra.BigOperators.Fin
import Mathlib.Algebra.BigOperators.Intervals

namespace Cert.LibTileSums

open Finset

variable {M : Type*} [AddCommMonoid M]

/-- Row-major flattening: summing `f (a * B + b)` over `a < A`, `b < B` is summing `f` over `range (A * B)`. -/
theorem sum_range_mul (A B : ℕ) (f : ℕ → M) :
    ∑ a ∈ range A, ∑ b ∈ range B, f (a * B + b) = ∑ i ∈ range (A * B), f i := by
  induction A with
  | zero => simp
  | succ A ih =>
    rw [Finset.sum_range_succ, ih, Nat.succ_mul, Finset.sum_range_add]

/-- Splitting an index `τ < B * C` into quotient and remainder by `C`. -/
theorem sum_div_mod (B C : ℕ) (h : ℕ → ℕ → M) :
    ∑ τ ∈ range (B * C), h (τ / C) (τ % C) = ∑ j ∈ range B, ∑ q ∈ range C, h j q := by
  rw [← sum_range_mul B C (fun τ => h (τ / C) (τ % C))]
  refine Finset.sum_congr rfl fun j _ => Finset.sum_congr rfl fun q hq => ?_
  have hq' : q < C := Finset.mem_range.mp hq
  have hC : 0 < C := by omega
  have e1 : (j * C + q) / C = j := by
    rw [Nat.mul_comm j C, Nat.mul_add_div hC, Nat.div_eq_of_lt hq', Nat.add_zero]
  have e2 : (j * C + q) % C = q := by
    rw [Nat.mul_comm j C, Nat.mul_add_mod, Nat.mod_eq_of_lt hq']
  rw [e1, e2]

/-- Slab tiling, general sizes: `(s, l, τ) ↦ (s * B + τ / C, (τ % C) * D + l)` enumerates
`range (A * B) × range (C * D)` exactly once. -/
theorem sum_slabs_general (A B C D : ℕ) (g : ℕ → ℕ → M) :
    ∑ s ∈ range A, ∑ l ∈ range D, ∑ τ ∈ range (B * C), g (s * B + τ / C) (τ % C * D + l)
      = ∑ n ∈ range (A * B), ∑ p ∈ range (C * D), g n p := by
  rw [← sum_range_mul A B (fun n => ∑ p ∈ range (C * D), g n p)]
  refine Finset.sum_congr rfl fun s _ => ?_
  calc ∑ l ∈ range D, ∑ τ ∈ range (B * C), g (s * B + τ / C) (τ % C * D + l)
      = ∑ l ∈ range D, ∑ j ∈ range B, ∑ q ∈ range C, g (s * B + j) (q * D + l) :=
        Finset.sum_congr rfl fun l _ => sum_div_mod B C (fun j q => g (s * B + j) (q * D + l))
    _ = ∑ j ∈ range B, ∑ l ∈ range D, ∑ q ∈ range C, g (s * B + j) (q * D + l) := Finset.sum_comm
    _ = ∑ j ∈ range B, ∑ q ∈ range C, ∑ l ∈ range D, g (s * B + j) (q * D + l) :=
        Finset.sum_congr rfl fun j _ => Finset.sum_comm
    _ = ∑ j ∈ range B, ∑ p ∈ range (C * D), g (s * B + j) p :=
        Finset.sum_congr rfl fun j _ => sum_range_mul C D (fun p => g (s * B + j) p)

/-- (1) Slab tiling of 16 images of 65536 pixels: 2 slabs × 16384 lanes × 32 sublanes. -/
theorem sum_slabs (g : ℕ → ℕ → M) :
    ∑ s ∈ range 2, ∑ l ∈ range 16384, ∑ τ ∈ range 32, g (8 * s + τ / 4) ((τ % 4) * 16384 + l)
      = ∑ n ∈ range 16, ∑ p ∈ range 65536, g n p := by
  have h : ∑ s ∈ range 2, ∑ l ∈ range 16384, ∑ τ ∈ range 32, g (s * 8 + τ / 4) (τ % 4 * 16384 + l)
      = ∑ n ∈ range 16, ∑ p ∈ range 65536, g n p := sum_slabs_general 2 8 4 16384 g
  rw [← h]
  refine Finset.sum_congr rfl fun s _ => Finset.sum_congr rfl fun l _ =>
    Finset.sum_congr rfl fun τ _ => ?_
  rw [Nat.mul_comm 8 s]

/-- Masked tiling, general sizes: the offsets `τ * B + l` (`τ < A`, `l < B`) that are `< N` enumerate
`range N` exactly once when `N ≤ A * B`; the others contribute `0`. -/
theorem sum_masked_general (A B N : ℕ) (hN : N ≤ A * B) (f : ℕ → M) :
    ∑ l ∈ range B, ∑ τ ∈ range A, (if τ * B + l < N then f (τ * B + l) else 0)
      = ∑ p ∈ range N, f p := by
  calc ∑ l ∈ range B, ∑ τ ∈ range A, (if τ * B + l < N then f (τ * B + l) else 0)
      = ∑ τ ∈ range A, ∑ l ∈ range B, (if τ * B + l < N then f (τ * B + l) else 0) := Finset.sum_comm
    _ = ∑ i ∈ range (A * B), (if i < N then f i else 0) :=
        sum_range_mul A B (fun i => if i < N then f i else 0)
    _ = ∑ i ∈ (range (A * B)).filter (fun i => i < N), f i := (Finset.sum_filter _ _).symm
    _ = ∑ p ∈ range N, f p := by
        congr 1
        ext i
        simp only [Finset.mem_filter, Finset.mem_range]
        omega

/-- (2) Masked tiling of 16 images of 65536 pixels: 3 tiles of 27008 lanes, the last one cut at 65536. -/
theorem sum_masked (g : ℕ → ℕ → M) :
    ∑ n ∈ range 16, ∑ l ∈ range 27008, ∑ τ ∈ range 3,
        (if τ * 27008 + l < 65536 then g n (τ * 27008 + l) else 0)
      = ∑ n ∈ range 16, ∑ p ∈ range 65536, g n p :=
  Finset.sum_congr rfl fun n _ => sum_masked_general 3 27008 65536 (by omega) (g n)

/-- (3a) Slab tiling with `Fin` index types. -/
theorem sum_slabs_fin (g : ℕ → ℕ → M) :
    ∑ s : Fin 2, ∑ l : Fin 16384, ∑ τ : Fin 32, g (8 * s.val + τ.val / 4) ((τ.val % 4) * 16384 + l.val)
      = ∑ n : Fin 16, ∑ p : Fin 65536, g n.val p.val := by
  have h := sum_slabs g
  simp only [Finset.sum_range] at h
  exact h

/-- (3b) Masked tiling with `Fin` index types. -/
theorem sum_masked_fin (g : ℕ → ℕ → M) :
    ∑ n : Fin 16, ∑ l : Fin 27008, ∑ τ : Fin 3,
        (if τ.val * 27008 + l.val < 65536 then g n.val (τ.val * 27008 + l.val) else 0)
      = ∑ n : Fin 16, ∑ p : Fin 65536, g n.val p.val := by
  have h := sum_masked g
  simp only [Finset.sum_range] at h
  exact h

/-- (4a) A running sum: `acc 0 = f 0` and `acc (k + 1) = acc k + f (k + 1)` give the partial sums of `f`. -/
theorem running_sum (acc f : ℕ → M) (h0 : acc 0 = f 0) (hs : ∀ k, acc (k + 1) = acc k + f (k + 1)) (k : ℕ) :
    acc k = ∑ i ∈ range (k + 1), f i := by
  induction k with
  | zero => rw [h0, Finset.sum_range_one]
  | succ k ih => rw [hs, ih, Finset.sum_range_succ f (k + 1)]

/-- Running sum from a restart point `b` (a multiple of the period): for `r < P`,
`acc (b + r)` is the sum of `f (b + i)` over `i ≤ r`. -/
theorem running_sum_from (P : ℕ) (acc f : ℕ → M)
    (h0 : ∀ t, t % P = 0 → acc t = f t) (hs : ∀ t, t % P ≠ 0 → acc t = acc (t - 1) + f t)
    (b : ℕ) (hb : b % P = 0) (r : ℕ) (hr : r < P) :
    acc (b + r) = ∑ i ∈ range (r + 1), f (b + i) := by
  induction r with
  | zero => rw [Finset.sum_range_one, Nat.add_zero, h0 b hb]
  | succ r ih =>
    have hmod : (b + (r + 1)) % P = r + 1 := by
      rw [Nat.add_mod, hb, Nat.zero_add, Nat.mod_mod, Nat.mod_eq_of_lt hr]
    have hne : (b + (r + 1)) % P ≠ 0 := by rw [hmod]; exact Nat.succ_ne_zero r
    have hpred : b + (r + 1) - 1 = b + r := rfl
    rw [hs _ hne, hpred, ih (Nat.lt_of_succ_lt hr), Finset.sum_range_succ (fun i => f (b + i)) (r + 1)]

/-- (4b) A running sum that restarts at every multiple of the period `P`. -/
theorem running_sum_restart (P : ℕ) (hP : 0 < P) (acc f : ℕ → M)
    (h0 : ∀ t, t % P = 0 → acc t = f t) (hs : ∀ t, t % P ≠ 0 → acc t = acc (t - 1) + f t) (t : ℕ) :
    acc t = ∑ i ∈ range (t % P + 1), f (t - t % P + i) := by
  have hb : (t - t % P) % P = 0 := Nat.sub_mod_eq_zero_of_mod_eq (Nat.mod_mod t P).symm
  have h := running_sum_from P acc f h0 hs (t - t % P) hb (t % P) (Nat.mod_lt t hP)
  rwa [Nat.sub_add_cancel (Nat.mod_le t P)] at h

end Cert.LibTileSums
-- ==== Proof.KAcc.lean ====
/-
  The accumulation over a slab, in closed form.

  The grid has 2 slabs of 32 steps; step τ of slab s (point t = 32 s + τ) is handed block
  (8 s + τ / 4, 0, τ % 4) of each input array: image n = 8 s + τ / 4, pixels (τ % 4) · 16384 + l for the
  16384 lanes l. The scratch entry (k, l) is reset at a slab's first step and gains the pixel's quantity k
  at every step, so after step τ it holds the sum over the steps 0..τ of the slab; at the slab's last step
  the output block receives, in row k at every lane, the sum of that over the lanes.
-/
import proofs.«163244_g2000502686089012_pallasbulk_752_2_alg».proof.Proof.Gen.KernelIdeal.Frame
import proofs.«163244_g2000502686089012_pallasbulk_752_2_alg».proof.Proof.KPiece
import proofs.«163244_g2000502686089012_pallasbulk_752_2_alg».proof.Proof.LibTileSums

set_option maxRecDepth 16384

noncomputable section

namespace Cert.KernelIdeal.KAcc

open Idealize.ShloMosaic Idealize.ShloMosaic.TcCoe Idealize.ShloMosaic.ValueIdx
open Idealize.SL.Sem
open Cert.KernelIdeal Cert.KernelIdeal.Gen Cert.KernelIdeal.KPay Cert.KernelIdeal.KPiece Cert.Spec

variable (m : (ℓ : Loc nD τ sig) → Buf (Elt Ideal) ℓ)

/-- The two 16 × 32 × 65536 arrays as the region finds them. -/
abbrev arrA (c : Dev nD) : Spec.Arr := V m c main_call0_v0
abbrev arrB (c : Dev nD) : Spec.Arr := V m c main_call0_v1

/-- Quantity `k` of pixel `p` of image `n`, the two indices as naturals (zero off the arrays). -/
def gN (A B : Spec.Arr) (k : Fin 3) (n p : ℕ) : EReal :=
  if h : n < 16 ∧ p < 65536 then
    px k (fun ch => A (ix3 ⟨n, h.1⟩ ch ⟨p, h.2⟩)) (fun ch => B (ix3 ⟨n, h.1⟩ ch ⟨p, h.2⟩))
  else 0

/-- The input windows' block index at point `t`, decided over the grid. -/
theorem idx_facts0 : ∀ t : Fin cfg0.N, win0_0.index t 0 = 8 * (t.val / 32) + t.val % 32 / 4
      ∧ win0_0.index t 1 = 0 ∧ win0_0.index t 2 = t.val % 32 % 4 :=
  (by decide +kernel : ∀ t : Fin grid0.N, _)
theorem idx_facts1 : ∀ t : Fin cfg0.N, win0_1.index t 0 = 8 * (t.val / 32) + t.val % 32 / 4
      ∧ win0_1.index t 1 = 0 ∧ win0_1.index t 2 = t.val % 32 % 4 :=
  (by decide +kernel : ∀ t : Fin grid0.N, _)

/-- The logits block at point `t`, read at channel `ch` and lane `l`: the array at the step's image and pixel. -/
theorem iblk0_apply (c : Dev nD) (t : Fin cfg0.N) (ch : Fin 32) (l : Fin 16384) (n p : ℕ) (hn : n < 16) (hp : p < 65536)
    (en : n = 8 * (t.val / 32) + t.val % 32 / 4) (ep : p = t.val % 32 % 4 * 16384 + l.val) :
    iblk m c 0 t (ix3 (0 : Fin 1) ch l) = arrA m c (ix3 ⟨n, hn⟩ ch ⟨p, hp⟩) := by
  unfold iblk
  rw [View.read_apply]
  show V m c main_call0_v0 _ = V m c main_call0_v0 _
  refine congrArg (V m c main_call0_v0) (funext fun a => Fin.ext ?_)
  match a with
  | ⟨0, _⟩ => show win0_0.index t 0 * 1 + 1 * 0 = n; rw [(idx_facts0 t).1, en]; omega
  | ⟨1, _⟩ => show win0_0.index t 1 * 32 + 1 * ch.val = ch.val; rw [(idx_facts0 t).2.1]; omega
  | ⟨2, _⟩ => show win0_0.index t 2 * 16384 + 1 * l.val = p; rw [(idx_facts0 t).2.2, ep]; omega

/-- The target block likewise. -/
theorem iblk1_apply (c : Dev nD) (t : Fin cfg0.N) (ch : Fin 32) (l : Fin 16384) (n p : ℕ) (hn : n < 16) (hp : p < 65536)
    (en : n = 8 * (t.val / 32) + t.val % 32 / 4) (ep : p = t.val % 32 % 4 * 16384 + l.val) :
    iblk m c 1 t (ix3 (0 : Fin 1) ch l) = arrB m c (ix3 ⟨n, hn⟩ ch ⟨p, hp⟩) := by
  unfold iblk
  rw [View.read_apply]
  show V m c main_call0_v1 _ = V m c main_call0_v1 _
  refine congrArg (V m c main_call0_v1) (funext fun a => Fin.ext ?_)
  match a with
  | ⟨0, _⟩ => show win0_1.index t 0 * 1 + 1 * 0 = n; rw [(idx_facts1 t).1, en]; omega
  | ⟨1, _⟩ => show win0_1.index t 1 * 32 + 1 * ch.val = ch.val; rw [(idx_facts1 t).2.1]; omega
  | ⟨2, _⟩ => show win0_1.index t 2 * 16384 + 1 * l.val = p; rw [(idx_facts1 t).2.2, ep]; omega

/-- What point `t` adds at `(k, l)`, as a function of the point's number alone (zero off the grid). -/
def fN (c : Dev nD) (k : Fin 3) (l : Fin 16384) (t : ℕ) : EReal :=
  gN (arrA m c) (arrB m c) k (8 * (t / 32) + t % 32 / 4) (t % 32 % 4 * 16384 + l.val)

/-- The step's quantity is that. -/
theorem step_eq (c : Dev nD) (t : Fin cfg0.N) (k : Fin 3) (l : Fin 16384) :
    px k (col (iblk m c 0 t) l) (col (iblk m c 1 t) l) = fN m c k l t.val := by
  have hN : t.val < 64 := lt_of_lt_of_eq t.isLt (show cfg0.N = 64 from N_0)
  have hn : 8 * (t.val / 32) + t.val % 32 / 4 < 16 := by omega
  have hp : t.val % 32 % 4 * 16384 + l.val < 65536 := by have := l.isLt; omega
  unfold fN gN
  rw [dif_pos ⟨hn, hp⟩]
  exact congrArg₂ (px k) (funext fun ch => iblk0_apply m c t ch l _ _ hn hp rfl rfl)
    (funext fun ch => iblk1_apply m c t ch l _ _ hn hp rfl rfl)

/-- The scratch after a slab's first step. -/
theorem scr_first (c : Dev nD) (t : Fin cfg0.N) (h0 : t.val % 32 = 0) (k : Fin 3) (l : Fin 16384) :
    (outsAt0 m c t.val t.isLt).2 (ix2 k l) = fN m c k l t.val := by
  have h1 : ¬t.val % 32 = 31 := by omega
  rw [outsAt0_A m c t h0 h1]
  dsimp only
  refine (sout_A_apply c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t) k l).trans ?_
  rw [zero_add]
  exact step_eq m c t k l

/-- The scratch after any other step: what the step before left, plus the step's quantity. -/
theorem scr_next (c : Dev nD) (t : Fin cfg0.N) (h0 : ¬t.val % 32 = 0) (k : Fin 3) (l : Fin 16384) :
    (outsAt0 m c t.val t.isLt).2 (ix2 k l)
      = (outsAt0 m c (t.val - 1) (Nat.lt_of_le_of_lt (Nat.sub_le _ _) t.isLt)).2 (ix2 k l) + fN m c k l t.val := by
  by_cases h1 : t.val % 32 = 31
  · rw [outsAt0_C m c t h0 h1]
    dsimp only
    refine (sout_C_apply c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2 k l).trans ?_
    exact congrArg (_ + ·) (step_eq m c t k l)
  · rw [outsAt0_B m c t h0 h1]
    dsimp only
    refine (sout_B_apply c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2 k l).trans ?_
    exact congrArg (_ + ·) (step_eq m c t k l)

/-- The output block after a slab's last step: row `k`, at every lane, is the lane sum of scratch row `k`. -/
theorem out_last (c : Dev nD) (t : Fin cfg0.N) (h1 : t.val % 32 = 31) (u : Fin 1) (k : Fin 3) (j : Fin 128) :
    (outsAt0 m c t.val t.isLt).1 (ix3 u k j) = ∑ l : Fin 16384, (outsAt0 m c t.val t.isLt).2 (ix2 k l) := by
  have h0 : ¬t.val % 32 = 0 := by omega
  rw [outsAt0_C m c t h0 h1]
  dsimp only
  refine (out_C_apply c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2 u k j)

/-- The scratch entry `(k, l)` after point `t`, as a function of the point's number (zero off the grid). -/
def accN (c : Dev nD) (k : Fin 3) (l : Fin 16384) (t : ℕ) : EReal :=
  if h : t < cfg0.N then (outsAt0 m c t h).2 (ix2 k l) else 0

theorem fN_off (c : Dev nD) (k : Fin 3) (l : Fin 16384) (t : ℕ) (h : 64 ≤ t) : fN m c k l t = 0 := by
  unfold fN gN
  exact dif_neg (fun hh => by have := hh.1; omega)

/-- THE RUNNING SUM: after point `t` the scratch holds the sum of the quantities of its slab's steps so far. -/
theorem scr_closed (c : Dev nD) (k : Fin 3) (l : Fin 16384) (t : ℕ) :
    accN m c k l t = ∑ i ∈ Finset.range (t % 32 + 1), fN m c k l (t - t % 32 + i) := by
  have hN : cfg0.N = 64 := N_0
  refine Cert.LibTileSums.running_sum_restart 32 (by omega) (accN m c k l) (fN m c k l) (fun t h0 => ?_) (fun t h0 => ?_) t
  · unfold accN
    by_cases h : t < cfg0.N
    · rw [dif_pos h]; exact scr_first m c ⟨t, h⟩ h0 k l
    · rw [dif_neg h]; exact (fN_off m c k l t (by omega)).symm
  · unfold accN
    by_cases h : t < cfg0.N
    · rw [dif_pos h, dif_pos (Nat.lt_of_le_of_lt (Nat.sub_le t 1) h)]
      exact scr_next m c ⟨t, h⟩ h0 k l
    · have h' : ¬(t - 1 < cfg0.N) := by omega
      rw [dif_neg h, dif_neg h', fN_off m c k l t (by omega), add_zero]

/-- At a slab's last step: the sum over the slab's 32 steps, by image and pixel (the slab is `t / 32`). -/
theorem scr_slab (c : Dev nD) (t : Fin cfg0.N) (h31 : t.val % 32 = 31) (k : Fin 3) (l : Fin 16384) :
    (outsAt0 m c t.val t.isLt).2 (ix2 k l)
      = ∑ τ ∈ Finset.range 32, gN (arrA m c) (arrB m c) k (8 * (t.val / 32) + τ / 4) (τ % 4 * 16384 + l.val) := by
  have e := scr_closed m c k l t.val
  unfold accN at e
  rw [dif_pos t.isLt] at e
  rw [e, h31]
  refine Finset.sum_congr rfl fun τ hτ => ?_
  have hτ' : τ < 32 := Finset.mem_range.mp hτ
  unfold fN
  have e1 : (t.val - 31 + τ) / 32 = t.val / 32 := by omega
  have e2 : (t.val - 31 + τ) % 32 = τ := by omega
  rw [e1, e2]

/-- So the output block of that slab holds, in row `k` at every lane, the slab's total of quantity `k`. -/
theorem out_slab (c : Dev nD) (t : Fin cfg0.N) (h31 : t.val % 32 = 31) (u : Fin 1) (k : Fin 3) (j : Fin 128) :
    (outsAt0 m c t.val t.isLt).1 (ix3 u k j)
      = ∑ l : Fin 16384, ∑ τ ∈ Finset.range 32,
          gN (arrA m c) (arrB m c) k (8 * (t.val / 32) + τ / 4) (τ % 4 * 16384 + l.val) :=
  (out_last m c t h31 u k j).trans (Finset.sum_congr rfl fun l _ => scr_slab m c t h31 k l)

end Cert.KernelIdeal.KAcc

end
-- ==== Proof.KBlocks.lean ====
/-
  From the output blocks to the 2 × 3 × 128 array the region leaves.

  The output window's block at point t is block (t / 32, 0, 0) of the array, of shape 1 × 3 × 128; it is written
  back at a slab's last step only (t % 32 = 31), and there the staging buffer holds, in row k at every lane,
  the slab's total of quantity k. The two slabs' blocks cover the array, so entry (s, k, j) of the array the
  region leaves is the total of quantity k over slab s.
-/
import proofs.«163244_g2000502686089012_pallasbulk_752_2_alg».proof.Proof.Gen.KernelIdeal.Frame
import proofs.«163244_g2000502686089012_pallasbulk_752_2_alg».proof.Proof.KAcc
import Idealize.ShloMosaic.Lib.Pipeline.Value

set_option maxRecDepth 16384

noncomputable section

namespace Cert.KernelIdeal.KBlocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.KAcc Cert.Spec

variable (m : (ℓ : Loc nD τ sig) → Buf (Elt Ideal) ℓ)

/-- The total of quantity `k` over slab `s`: 16384 lanes times 32 steps. -/
def slabTot (c : Dev nD) (s : ℕ) (k : Fin 3) : EReal :=
  ∑ l : Fin 16384, ∑ τ ∈ Finset.range 32, gN (arrA m c) (arrB m c) k (8 * s + τ / 4) (τ % 4 * 16384 + l.val)

/-- The array the region leaves: entry `(s, k, j)` is slab `s`'s total of quantity `k`, at every lane `j`. -/
def outArr (c : Dev nD) : S2x3x128.Idx → EReal := fun i => slabTot m c (i 0).val ⟨(i 1).val, (i 1).isLt⟩

/-- The output window's block index at point `t`, decided over the grid. -/
theorem idx_facts2 : ∀ t : Fin cfg0.N, win0_2.index t 0 = t.val / 32 ∧ win0_2.index t 1 = 0 ∧ win0_2.index t 2 = 0 :=
  (by decide +kernel : ∀ t : Fin grid0.N, _)

set_option maxRecDepth 65536 in
/-- What a slab's last step writes back is its block of that array. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  have hN : t.val < 64 := lt_of_lt_of_eq t.isLt (show cfg0.N = 64 from N_0)
  show (cfg0.win 2).cut (grid0.coords t) ((dats m 0 c).after 2 t) = _
  rw [after0_2]
  funext y
  rw [View.read_apply]
  obtain ⟨u, k, j, rfl⟩ : ∃ (u : Fin 1) (k : Fin 3) (j : Fin 128), y = ix3 u k j := ⟨y 0, y 1, y 2, eq_ix3 y⟩
  have he : ((cfg0.win 2).blk t).view.emb (ix3 u k j) = ix3 (⟨t.val / 32, by omega⟩ : Fin 2) k j :=
    funext fun a => Fin.ext (by
      have hi := idx_facts2 t
      have hu : u.val = 0 := by omega
      match a with
      | ⟨0, _⟩ => show win0_2.index t 0 * 1 + 1 * u.val = t.val / 32; rw [hi.1]; omega
      | ⟨1, _⟩ => show win0_2.index t 1 * 3 + 1 * k.val = k.val; rw [hi.2.1]; omega
      | ⟨2, _⟩ => show win0_2.index t 2 * 128 + 1 * j.val = j.val; rw [hi.2.2]; omega)
  rw [he]
  exact out_slab m c t h31 u k j

/-- An index of the array is in point `t`'s block iff each coordinate is in the block's range on its axis. -/
theorem mem_blk (t : Fin cfg0.N) (i : S2x3x128.Idx) :
    i ∈ ((cfg0.win 2).blk t).view.set ↔ ∀ a : Fin 3, win0_2.index t a * S1x3x128.size a ≤ (i a).val
      ∧ (i a).val < win0_2.index t a * S1x3x128.size a + S1x3x128.size a := by
  show i ∈ ((View.whole main_call0_v2).slice (win0_2.rect t)).set ↔ _
  rw [View.set_slice_whole, Rect.mem_set_unit]
  exact Iff.rfl

/-- The two slabs' last steps cover the array. -/
theorem cover (i : S2x3x128.Idx) : ∃ t : Fin cfg0.N, (cfg0.win 2).flush t = true ∧ i ∈ ((cfg0.win 2).blk t).view.set := by
  have hN : cfg0.N = 64 := N_0
  have hN' : grid0.N = 64 := N_0
  have hi0 : (i 0).val < 2 := (i 0).isLt
  have hi1 : (i 1).val < 3 := (i 1).isLt
  have hi2 : (i 2).val < 128 := (i 2).isLt
  refine ⟨⟨32 * (i 0).val + 31, by omega⟩, (flush0_2 _).mpr (by show (32 * (i 0).val + 31) % 32 = 31; omega), ?_⟩
  obtain ⟨e0, e1, e2⟩ := idx_facts2 ⟨32 * (i 0).val + 31, by omega⟩
  have e0' : win0_2.index ⟨32 * (i 0).val + 31, by omega⟩ 0 = (i 0).val := by rw [e0]; show (32 * (i 0).val + 31) / 32 = _; omega
  rw [mem_blk]
  intro a
  match a with
  | ⟨0, _⟩ => show win0_2.index _ 0 * 1 ≤ (i 0).val ∧ (i 0).val < win0_2.index _ 0 * 1 + 1; rw [e0']; omega
  | ⟨1, _⟩ => show win0_2.index _ 1 * 3 ≤ (i 1).val ∧ (i 1).val < win0_2.index _ 1 * 3 + 3; rw [e1]; omega
  | ⟨2, _⟩ => show win0_2.index _ 2 * 128 ≤ (i 2).val ∧ (i 2).val < win0_2.index _ 2 * 128 + 128; rw [e2]; omega

set_option maxRecDepth 65536 in
/-- THE ARRAY after the region. -/
theorem final (c : Dev nD) : (dats m 0 c).arrAt 2 cfg0.N = outArr m c :=
  (dats m 0 c).arrAt_eq_of_cover 2 (outArr m c) (flushed_eq m c) cover

end Cert.KernelIdeal.KBlocks

end
-- ==== Proof.KValue.lean ====
/-
  The host lines after the region, and the kernel's run read as a value.

  After the region the host takes lane 0 of every row of the 2 × 3 × 128 array, adds the two slabs, and divides:
  accuracy = total 1 / total 2, mean loss = total 0 / 2^20. Lane 0 of row k of slab s is the slab's total of
  quantity k, a sum over 16384 lanes and 32 steps of the per-pixel quantity at image 8 s + τ / 4 and pixel
  (τ % 4) · 16384 + l; over the two slabs these are every pixel of every image once, so the three totals are
  the specification's, by commutativity and associativity of addition alone.
-/
import proofs.«163244_g2000502686089012_pallasbulk_752_2_alg».proof.Proof.Gen.KernelIdeal.Frame
import proofs.«163244_g2000502686089012_pallasbulk_752_2_alg».proof.Proof.KBlocks
import proofs.«163244_g2000502686089012_pallasbulk_752_2_alg».proof.Proof.LibTileSums
import Idealize.ShloMosaic.Lib.Pipeline.Value
import Idealize.ShloMosaic.Lib.StableHlo.Run
import Idealize.ShloMosaic.Lib.IdealHost

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.Spec Cert.KernelIdeal.KBlocks

variable (m : (ℓ : Loc nD τ sig) → Buf (Elt Ideal) ℓ) (ρ : Dev nD → PrngReg)

/-- The two 16 × 32 × 65536 arrays as the region finds them. -/
def arrA (c : Dev nD) : Spec.Arr := V m c main_call0_v0
def arrB (c : Dev nD) : Spec.Arr := V m c main_call0_v1

/-! ## The host lines after the region -/

/-- The three totals the host lines form from the output array: lane 0 of every row, summed over the slabs. -/
def tailTot (O : FVec Ideal S2x3x128 .f32) : FVec Ideal S3 .f32 :=
  Host.reduceAdd (shapeCast S2x3 (extractStridedSlice S2x3x1 ![0, 0, 0] O slices_S2x3x128_S2x3x1_0_0_0) shapeCasts_S2x3x1_S2x3)
    (constant S_ .f32 0x00000000#32) reducesTo_S2x3_S3_d0 h_S_
/-- The accuracy the host lines form: total 1 over total 2. -/
def tailAcc (O : FVec Ideal S2x3x128 .f32) : FVec Ideal S_ .f32 :=
  Host.divf (shapeCast S_ (extractStridedSlice S1 ![1] (tailTot O) slices_S3_S1_1) shapeCasts_S1_S_)
    (shapeCast S_ (extractStridedSlice S1 ![2] (tailTot O) slices_S3_S1_2) shapeCasts_S1_S_)
/-- The mean loss the host lines form: total 0 over 2^20. -/
def tailLoss (O : FVec Ideal S2x3x128 .f32) : FVec Ideal S_ .f32 :=
  Host.divf (shapeCast S_ (extractStridedSlice S1 ![0] (tailTot O) slices_S3_S1_0) shapeCasts_S1_S_)
    (constant S_ .f32 0x49800000#32)

/-- The output array as the host lines find it. -/
theorem withArrays2 (c : Dev nD) :
    Pipeline.withArrays (cfgs 0).spec c (V0 m c) (fun w => (dats m 0 c).arrAt w (cfgs 0).N) (Proc.devRef .tc main_call0_v2)
      = outArr m c :=
  (Pipeline.withArrays_arr spec0 launch0.win.arr_inj c _ _ 2).trans (final m c)

set_option maxRecDepth 65536 in
theorem tail_acc (c : Dev nD) :
    Pipeline.afterTail₀ cfgs (dats m) 0 (V0 m) [hostOps1] c main_v0_0 = tailAcc (outArr m c) := by
  unfold Pipeline.afterTail₀
  show StableHlo.after hostOps1 _ (Proc.devRef .tc main_v0_0) = _
  after_results
  exact (show _ = tailAcc (Pipeline.withArrays (cfgs 0).spec c (V0 m c) (fun w => (dats m 0 c).arrAt w (cfgs 0).N) (Proc.devRef .tc main_call0_v2)) from rfl).trans
    (congrArg tailAcc (withArrays2 m c))

set_option maxRecDepth 65536 in
theorem tail_loss (c : Dev nD) :
    Pipeline.afterTail₀ cfgs (dats m) 0 (V0 m) [hostOps1] c main_v0_1 = tailLoss (outArr m c) := by
  unfold Pipeline.afterTail₀
  show StableHlo.after hostOps1 _ (Proc.devRef .tc main_v0_1) = _
  after_results
  exact (show _ = tailLoss (Pipeline.withArrays (cfgs 0).spec c (V0 m c) (fun w => (dats m 0 c).arrAt w (cfgs 0).N) (Proc.devRef .tc main_call0_v2)) from rfl).trans
    (congrArg tailLoss (withArrays2 m c))

/-! ## The host lines read, and the totals -/

theorem lift_slab (h : S2x3.Reduces [0] S3) (k : Fin 3) (s : Fin 2) : h.lift (ix1 k) s = ix2 s k := by
  funext c
  match c with
  | ⟨0, _⟩ => rfl
  | ⟨1, _⟩ => rfl

/-- Total `k` is the sum over the slabs of lane 0 of row `k` of the slab's block. -/
theorem tailTot_apply (O : FVec Ideal S2x3x128 .f32) (k : Fin 3) :
    tailTot O (ix1 k) = ∑ s : Fin 2, O (ix3 s k (0 : Fin 128)) := by
  unfold tailTot
  rw [hostReduceAdd_apply, Ideal.hostReduceAdd_single reducesTo_S2x3_S3_d0 (by decide : S2x3.Reduces [0] S3)]
  have h0 : (constant S_ .f32 0x00000000#32 : FVec Ideal S_ .f32) (Shape.Idx.first h_S_) = 0 := Ideal.ofBits_zero_f32
  rw [h0, zero_add]
  refine Finset.sum_congr rfl fun s _ => ?_
  refine (congrArg (shapeCast S2x3 (extractStridedSlice S2x3x1 ![0, 0, 0] O slices_S2x3x128_S2x3x1_0_0_0) shapeCasts_S2x3x1_S2x3)
    (lift_slab _ k s)).trans ?_
  refine (shapeCast_apply _ _ (ix2 s k) (ix3 s k (0 : Fin 1)) (by
    rw [Shape.rowMajor_val_three, Shape.rowMajor_val_two]
    show (s.val * 3 + k.val) * 1 + 0 = s.val * 3 + k.val
    omega)).trans ?_
  exact extractStridedSlice_apply ![0, 0, 0] O _ (ix3 s k (0 : Fin 1)) (ix3 s k (0 : Fin 128)) fun a =>
    match a with
    | ⟨0, _⟩ => by show s.val = 0 + s.val; omega
    | ⟨1, _⟩ => by show k.val = 0 + k.val; omega
    | ⟨2, _⟩ => by show 0 = 0 + 0; rfl

/-- A one-element vector cast to a scalar reads its element. -/
theorem cast_S1_S_ (v : FVec Ideal S1 .f32) (j : S_.Idx) : shapeCast S_ v shapeCasts_S1_S_ j = v (ix1 (0 : Fin 1)) :=
  shapeCast_apply v _ j (ix1 (0 : Fin 1)) (by
    rw [Shape.rowMajor_val_one]
    have h := (S_.rowMajor j).isLt
    have h1 : S_.numel = 1 := rfl
    show 0 = _
    omega)

theorem tailAcc_eq (O : FVec Ideal S2x3x128 .f32) :
    tailAcc O = resAcc (fun k => ∑ s : Fin 2, O (ix3 s k (0 : Fin 128))) := by
  funext j
  unfold tailAcc resAcc
  rw [hostDivf_apply, cast_S1_S_, cast_S1_S_,
    extractStridedSlice_apply ![1] (tailTot O) _ (ix1 (0 : Fin 1)) (ix1 (1 : Fin 3)) (fun a => match a with | ⟨0, _⟩ => by show 1 = 1 + 0; rfl),
    extractStridedSlice_apply ![2] (tailTot O) _ (ix1 (0 : Fin 1)) (ix1 (2 : Fin 3)) (fun a => match a with | ⟨0, _⟩ => by show 2 = 2 + 0; rfl),
    tailTot_apply, tailTot_apply]

theorem tailLoss_eq (O : FVec Ideal S2x3x128 .f32) :
    tailLoss O = resLoss (fun k => ∑ s : Fin 2, O (ix3 s k (0 : Fin 128))) := by
  funext j
  unfold tailLoss resLoss
  rw [hostDivf_apply, cast_S1_S_,
    extractStridedSlice_apply ![0] (tailTot O) _ (ix1 (0 : Fin 1)) (ix1 (0 : Fin 3)) (fun a => match a with | ⟨0, _⟩ => by show 0 = 0 + 0; rfl),
    tailTot_apply]
  rfl

/-- THE TOTALS: summed over the two slabs, lane 0 of row `k` of the output array is the total of quantity `k` over
    every pixel of every image — the slabs' lanes and steps are the 16 × 65536 pixels once each. -/
theorem totals_eq (c : Dev nD) (k : Fin 3) :
    ∑ s : Fin 2, outArr m c (ix3 s k (0 : Fin 128)) = Spec.T (arrA m c) (arrB m c) k := by
  unfold Spec.T
  show (∑ s : Fin 2, ∑ l : Fin 16384, ∑ τ ∈ Finset.range 32,
      KAcc.gN (arrA m c) (arrB m c) k (8 * s.val + τ / 4) (τ % 4 * 16384 + l.val)) = _
  simp only [Finset.sum_range]
  rw [Cert.LibTileSums.sum_slabs_fin (KAcc.gN (arrA m c) (arrB m c) k)]
  refine Finset.sum_congr rfl fun n _ => Finset.sum_congr rfl fun p _ => ?_
  unfold KAcc.gN
  rw [dif_pos ⟨n.isLt, p.isLt⟩]

/-! ## The run, read -/

/-- The logits array as the region finds it is the host's reshape of the first argument, -/
theorem arrA_eq (c : Dev nD) :
    arrA m c = shapeCast S16x32x65536 (m ((c.tc : Thread nD τ).loc main_arg0)) shapeCasts_S16x32x256x256_S16x32x65536 := by
  unfold arrA
  show StableHlo.after hostOps0 (fun b => m (c, b)) (Proc.devRef .tc main_call0_v0) = _
  after_results
  rfl
/-- and the target array that of the second. -/
theorem arrB_eq (c : Dev nD) :
    arrB m c = shapeCast S16x32x65536 (m ((c.tc : Thread nD τ).loc main_arg1)) shapeCasts_S16x32x256x256_S16x32x65536 := by
  unfold arrB
  show StableHlo.after hostOps0 (fun b => m (c, b)) (Proc.devRef .tc main_call0_v1) = _
  after_results
  rfl

/-- THE KERNEL'S RUN: every weakly fair execution terminates; the two results are the accuracy and the mean loss of
    the totals over every pixel of every image of the two reshaped arguments; the arguments end unchanged. -/
theorem run : θ_run defs (onTc (τ := τ) (main (F := Ideal))) ⟨m, fun _ => 0, ρ⟩ (fun r => ∀ c : Dev nD,
      r.2.mem ((c.tc : Thread nD τ).loc main_v0_0) = resAcc (Spec.T (arrA m c) (arrB m c))
      ∧ r.2.mem ((c.tc : Thread nD τ).loc main_v0_1) = resLoss (Spec.T (arrA m c) (arrB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0_0 (Pipeline.mem_restRefs_of main_v0_0 (by decide) (by decide))).trans
        ((tail_acc m c).trans ((tailAcc_eq _).trans (congrArg resAcc (funext fun k => totals_eq m c k)))),
      ((h c).2 main_v0_1 (Pipeline.mem_restRefs_of main_v0_1 (by decide) (by decide))).trans
        ((tail_loss m c).trans ((tailLoss_eq _).trans (congrArg resLoss (funext fun k => totals_eq m c k)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefRuns.lean ====
/-
  The reference program's kernel walks a grid of 16 images by 3 lane tiles of 27008 pixels. Its body has two
  conditionals on the tile coordinate: the accumulator (a 3 x 27008 scratch) is cleared at tile 0, and at tile 2
  its three rows are summed over the lanes into the image's output block. This module fixes what the three
  control cases share: the two conditions decided over the grid (tile 0: the point's number is 0 mod 3; tile 2:
  it is 2 mod 3), the points at which the output window is idle (every point but the last tile's), the staging
  memrefs the body is called with at a point, and the region's standing invariant with the scratch named.
-/
import proofs.«163244_g2000502686089012_pallasbulk_752_2_alg».proof.Proof.Gen.ReferenceIdeal.Frame
import proofs.«163244_g2000502686089012_pallasbulk_752_2_alg».proof.Proof.Gen.ReferenceIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditions over the grid -/

/-- "This is the image's first tile": the condition under which the accumulator is cleared. -/
abbrev cond0_0 (i : grid0.Coords) : Prop := (Scalar.cmpi .ne (Scalar.extui (Scalar.cmpi .eq (BitVec.ofNat 32 (i 1).val) 0#32)) 0#32) = 1#1
/-- It holds exactly at the points whose number is 0 mod 3. -/
theorem hcond0_0 : ∀ t : Fin cfg0.N, cond0_0 (grid0.coords t) ↔ t.val % 3 = 0 :=
  (by decide +kernel : ∀ t : Fin grid0.N, cond0_0 (grid0.coords t) ↔ t.val % 3 = 0)

/-- "This is the image's last tile": the condition under which the lane sums are written out. -/
abbrev cond0_1 (i : grid0.Coords) : Prop := k0_cond2 i = 1#1
/-- It holds exactly at the points whose number is 2 mod 3. -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from an image's last tile the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At an image's last tile the output block is stored whole. -/
theorem liveAt0_2 : ∀ t : Fin cfg0.N, cond0_1 (grid0.coords t) → cfg0.idle 2 (grid0.coords t) = false := by decide +kernel

/-! ## The memrefs the body is called with -/

abbrev VO0_2 : View sig .tc .vmem S1x3x128 .f32 := (Memref.whole cc0_stg2_0 : Memref sig .tc .vmem S1x3x128 .f32).view
abbrev ms0_0 (t : Fin cfg0.N) : Memref sig .tc .vmem S1x32x27008 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x27008 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x128 .f32 := win0_2.stage (cfg0.slots t 2)
abbrev hs0_2 (t : Fin cfg0.N) : (ms0_2 t).IsWhole := hstage0_2 ((cfg0.slots t 2).cast nbuf0_2)
/-- The accumulator: a whole scratch buffer of the kernel's own. -/
abbrev scM0_0 : Memref sig .tc .vmem S3x27008 .f32 := Memref.whole cc0_scratch0
abbrev VS0_0 : View sig .tc .vmem S3x27008 .f32 := scM0_0.view

/-- The region's standing invariant, with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ReferenceIdeal.RF

end
-- ==== Proof.RefRunA.lean ====
/-
  The body at an image's FIRST tile (the accumulator is cleared first, nothing is written out): on whole staging
  memrefs holding any contents, with the accumulator at anything, the body runs, leaves the inputs and the idle
  output block as it found them, and leaves the accumulator with the pieces its stores wrote (last first).
-/
import proofs.«163244_g2000502686089012_pallasbulk_752_2_alg».proof.Proof.RefRuns

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : cond0_0 i) (hc1 : ¬cond0_1 i)
    (x0 : Vec F S1x32x27008 .f32) (x1 : Vec F S1x32x27008 .f32) :
    Σ' (L2 : List (View.Piece (Elt F) S1x3x128 .f32)), { LS0 : List (View.Piece (Elt F) S3x27008 .f32) //
      ∀ (xi2 : Vec F S1x3x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__unet_ce_kernel i arg2 harg2 arg3 harg3 arg4 harg4 arg5 harg5) K } := by
  refine ⟨[], ?_, fun xi2 E K => ?run⟩
  case run =>
    simp only [cc0__unet_ce_kernel_eq_skeleton]; unfold cc0__unet_ce_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.ReferenceIdeal.RF

end
-- ==== Proof.RefRunB.lean ====
/-
  The body at an image's MIDDLE tile (nothing cleared, nothing written out): with the accumulator at the contents
  the tile before left, the body runs, leaves the inputs and the idle output block as it found them, and leaves the
  accumulator with the pieces its one whole store wrote.
-/
import proofs.«163244_g2000502686089012_pallasbulk_752_2_alg».proof.Proof.RefRunA

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : ¬cond0_1 i)
    (x0 : Vec F S1x32x27008 .f32) (x1 : Vec F S1x32x27008 .f32) (xs0 : Vec F S3x27008 .f32) :
    Σ' (L2 : List (View.Piece (Elt F) S1x3x128 .f32)), { LS0 : List (View.Piece (Elt F) S3x27008 .f32) //
      ∀ (xi2 : Vec F S1x3x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__unet_ce_kernel i arg2 harg2 arg3 harg3 arg4 harg4 arg5 harg5) K } := by
  refine ⟨[], ?_, fun xi2 E K => ?run⟩
  case run =>
    simp only [cc0__unet_ce_kernel_eq_skeleton]; unfold cc0__unet_ce_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.ReferenceIdeal.RF

end
-- ==== Proof.RefRunC.lean ====
/-
  The body at an image's LAST tile (nothing cleared; the lane sums of the accumulator's three rows are stored into
  the output block): with the accumulator at the contents the tile before left and the output block at anything,
  the body runs, leaves the inputs as it found them, and leaves the accumulator and the output block with the pieces
  its stores wrote.
-/
import proofs.«163244_g2000502686089012_pallasbulk_752_2_alg».proof.Proof.RefRunB

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) :
    Σ' (L2 : List (View.Piece (Elt F) S1x3x128 .f32)), { LS0 : List (View.Piece (Elt F) S3x27008 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__unet_ce_kernel i arg2 harg2 arg3 harg3 arg4 harg4 arg5 harg5) K } := by
  refine ⟨?_, ?_, fun E K => ?run⟩
  case run =>
    simp only [cc0__unet_ce_kernel_eq_skeleton]; unfold cc0__unet_ce_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.ReferenceIdeal.RF

end
-- ==== Proof.RefOuts.lean ====
/-
  What each of the three control cases leaves behind, first as the pieces its stores wrote read back, then as the
  body's own arithmetic: every tile adds to the accumulator (cleared first at an image's first tile) the tile's three
  masked rows, and an image's last tile also stores the accumulator's lane sums into the output block.
-/
import proofs.«163244_g2000502686089012_pallasbulk_752_2_alg».proof.Proof.RefRunC
import Idealize.ShloMosaic.Lib.Pipeline.Value

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What each case leaves in the accumulator and in the output block -/

/-- At a first tile the accumulator's pieces cover it: the last store is of the whole buffer. -/
theorem scover0_A_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : cond0_0 i) (hc1 : ¬cond0_1 i)
    (x0 : Vec F S1x32x27008 .f32) (x1 : Vec F S1x32x27008 .f32) (y : S3x27008.Idx) :
    ∃ pc ∈ (kernelRun0_A c i arg2 harg2 arg3 harg3 arg4 harg4 arg5 harg5 hc0 hc1 x0 x1).2.1, y ∈ pc.1.set :=
  View.cover_of_wholeMem (kernelRun0_A c i arg2 harg2 arg3 harg3 arg4 harg4 arg5 harg5 hc0 hc1 x0 x1).2.1 (by sl_whole_mem) y

/-- What a first tile leaves in the accumulator: its pieces read back. -/
def sout0_A_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : cond0_0 i) (hc1 : ¬cond0_1 i)
    (x0 : Vec F S1x32x27008 .f32) (x1 : Vec F S1x32x27008 .f32) : Vec F S3x27008 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : ¬cond0_1 i)
    (x0 : Vec F S1x32x27008 .f32) (x1 : Vec F S1x32x27008 .f32) (xs0 : Vec F S3x27008 .f32) (y : S3x27008.Idx) :
    ∃ pc ∈ (kernelRun0_B c i arg2 harg2 arg3 harg3 arg4 harg4 arg5 harg5 hc0 hc1 x0 x1 xs0).2.1, y ∈ pc.1.set :=
  View.cover_of_wholeMem (kernelRun0_B c i arg2 harg2 arg3 harg3 arg4 harg4 arg5 harg5 hc0 hc1 x0 x1 xs0).2.1 (by sl_whole_mem) y

/-- What a middle tile leaves in the accumulator. -/
def sout0_B_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : ¬cond0_1 i)
    (x0 : Vec F S1x32x27008 .f32) (x1 : Vec F S1x32x27008 .f32) (xs0 : Vec F S3x27008 .f32) : Vec F S3x27008 .f32 :=
  VS0_0.read (Elt F) (VS0_0.writes (Elt F) VS0_0.junk (kernelRun0_B c i arg2 harg2 arg3 harg3 arg4 harg4 arg5 harg5 hc0 hc1 x0 x1 xs0).2.1)

theorem scover0_C_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) (y : S3x27008.Idx) :
    ∃ pc ∈ (kernelRun0_C c i arg2 harg2 arg3 harg3 arg4 harg4 arg5 harg5 hc0 hc1 x0 x1 xs0).2.1, y ∈ pc.1.set :=
  View.cover_of_wholeMem (kernelRun0_C c i arg2 harg2 arg3 harg3 arg4 harg4 arg5 harg5 hc0 hc1 x0 x1 xs0).2.1 (by sl_whole_mem) y

/-- What a last tile leaves in the accumulator. -/
def sout0_C_0 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) : Vec F S3x27008 .f32 :=
  VS0_0.read (Elt F) (VS0_0.writes (Elt F) VS0_0.junk (kernelRun0_C c i arg2 harg2 arg3 harg3 arg4 harg4 arg5 harg5 hc0 hc1 x0 x1 xs0).2.1)

/-- At a last tile the one store into the output block covers it. -/
theorem cover0_C_2 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) (y : S1x3x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x3x128.size (by sl_kernel_rfl) y

/-- What a last tile leaves in the output block. -/
def out0_C_2 (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) : Vec F S1x3x128 .f32 :=
  VO0_2.read (Elt F) (VO0_2.writes (Elt F) VO0_2.junk (kernelRun0_C c i arg2 harg2 arg3 harg3 arg4 harg4 arg5 harg5 hc0 hc1 x0 x1 xs0).1)

/-! ## The same contents as the body's payloads -/

/-- The global tile number the body computes from the grid point (three tiles per image, one slab). -/
def tileW (i : grid0.Coords) : BitVec 32 :=
  Scalar.addi
    (Scalar.muli
      (Scalar.select
        (Scalar.andi
          (Scalar.xori (Scalar.cmpi CmpIPredicate.slt (Scalar.remsi (BitVec.ofNat 32 (i 0).val) 1#32) 0#32) 0#1)
          (Scalar.cmpi CmpIPredicate.ne (Scalar.remsi (BitVec.ofNat 32 (i 0).val) 1#32) 0#32))
        (Scalar.addi (Scalar.remsi (BitVec.ofNat 32 (i 0).val) 1#32) 1#32)
        (Scalar.remsi (BitVec.ofNat 32 (i 0).val) 1#32))
      3#32)
    (BitVec.ofNat 32 (i 1).val)

/-- One tile's step on the accumulator: the accumulator's contents `xs` plus the tile's three masked rows
    (cross-entropy terms, correct-prediction indicators, non-background indicators) of the blocks `x0`, `x1`. -/
def step (i : grid0.Coords) (x0 : Vec F S1x32x27008 .f32) (x1 : Vec F S1x32x27008 .f32) (xs : Vec F S3x27008 .f32) : Vec F S3x27008 .f32 :=
  k0_pay1 (k0_pay8 x0 x1) (k0_pay9 x1) (k0_pay10 x0 x1) (tileW i) 27008#32 xs

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile leaves one step over the cleared accumulator. -/
theorem sout0_A_0_eq (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : cond0_0 i) (hc1 : ¬cond0_1 i)
    (x0 : Vec F S1x32x27008 .f32) (x1 : Vec F S1x32x27008 .f32) :
    sout0_A_0 c i arg2 harg2 arg3 harg3 arg4 harg4 arg5 harg5 hc0 hc1 x0 x1 = step i x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero hz2]
  simp only [View.readAt_eq_ld, harg2.read_unread, harg3.read_unread, View.ld_unit_zero (S := S1x32x27008) hz3]
  rw [View.readCov_unit_zero (S := S3x27008) (Val := Elt F) (e := .f32) arg5.view hz2 inb_S3x27008_S3x27008_0_0 (k0_pay3 (F := F))]
  rfl

/-- A middle tile leaves one step over what the tile before left. -/
theorem sout0_B_0_eq (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : ¬cond0_1 i)
    (x0 : Vec F S1x32x27008 .f32) (x1 : Vec F S1x32x27008 .f32) (xs0 : Vec F S3x27008 .f32) :
    sout0_B_0 c i arg2 harg2 arg3 harg3 arg4 harg4 arg5 harg5 hc0 hc1 x0 x1 xs0 = step i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_cons_unit_zero hz2]
  simp only [View.readAt_eq_ld, harg2.read_unread, harg3.read_unread, harg5.read_unread, View.ld_unit_zero (S := S1x32x27008) hz3,
    View.ld_unit_zero (S := S3x27008) hz2]
  rfl

/-- So does a last tile, -/
theorem sout0_C_0_eq (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) :
    sout0_C_0 c i arg2 harg2 arg3 harg3 arg4 harg4 arg5 harg5 hc0 hc1 x0 x1 xs0 = step i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_cons_unit_zero hz2]
  simp only [View.readAt_eq_ld, harg2.read_unread, harg3.read_unread, harg5.read_unread, View.ld_unit_zero (S := S1x32x27008) hz3,
    View.ld_unit_zero (S := S3x27008) hz2]
  rfl

/-- and it stores the lane sums of that into the output block. -/
theorem out0_C_2_eq (c : Dev nD) (i : grid0.Coords) (arg2 : Memref sig .tc .vmem S1x32x27008 .f32) (harg2 : arg2.IsWhole) (arg3 : Memref sig .tc .vmem S1x32x27008 .f32) (harg3 : arg3.IsWhole) (arg4 : Memref sig .tc .vmem S1x3x128 .f32) (harg4 : arg4.IsWhole) (arg5 : Memref sig .tc .vmem S3x27008 .f32) (harg5 : arg5.IsWhole) (hc0 : ¬cond0_0 i) (hc1 : cond0_1 i)
    (x0 : Vec F S1x32x27008 .f32) (x1 : Vec F S1x32x27008 .f32) (xs0 : Vec F S3x27008 .f32) :
    out0_C_2 c i arg2 harg2 arg3 harg3 arg4 harg4 arg5 harg5 hc0 hc1 x0 x1 xs0 = k0_pay2 (step i x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.ld_unit_zero (S := S1x32x27008) hz3,
    View.ld_unit_zero (S := S3x27008) hz2]
  exact congrArg k0_pay2 (View.readCov_unit_zero (S := S3x27008) arg5.view hz2 inb_S3x27008_S3x27008_0_0 (step i x0 x1 xs0))

end Cert.ReferenceIdeal.RF

end
-- ==== Proof.RefPay.lean ====
/-
  The reference body's arithmetic read at one lane, over the extended reals.

  A block is one image's 32 channels on 27008 lanes. At lane `l` the body forms the three per-pixel quantities of the
  lane's two channel columns — the cross-entropy term, the "correct" indicator, the "counted" indicator — and masks
  them by the one-bit word "this lane's pixel number is below 65536" (the last tile of an image overhangs it): the
  cross-entropy term by a select against zero, the indicators by a conjunction with the word. One step adds the three
  masked rows to the accumulator. Where the word is 0 the lane contributes zero whatever stands in the block; where it
  is 1 the lane's pixel lies inside the array. So a step does not depend on the block's lanes past the array's end.
-/
import proofs.«163244_g2000502686089012_pallasbulk_752_2_alg».proof.Proof.RefOuts
import proofs.«163244_g2000502686089012_pallasbulk_752_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RPay

open Idealize.ShloMosaic Idealize.ShloMosaic.ValueIdx Cert.ReferenceIdeal Cert.ReferenceIdeal.Gen Cert.Spec Cert.ReferenceIdeal.RF

/-- Column `l` of a 1 x 32 x 27008 block: its 32 channel entries. -/
abbrev col (x : Vec Ideal S1x32x27008 .f32) (l : Fin 27008) : Fin 32 → EReal :=
  fun c => x (ix3 (0 : Fin 1) c l)

theorem log_apply {s : Shape} {φ : FTy} (a : FVec Ideal s φ) (i : s.Idx) : log a i = Ideal.log (a i) := rfl
theorem andi_apply {s : Shape} {w : Nat} (a b : IVec s w) (i : s.Idx) : andi a b i = IntOp.andi (a i) (b i) := rfl

/-- Over lane `l` of the reduced shape, the source index with channel `k` inserted is `(k, l)`. -/
theorem lift_chan (h : S32x27008.Reduces [0] S27008) (l : Fin 27008) (k : Fin 32) :
    h.lift (ix1 l) k = ix2 k l := by
  funext c
  match c with
  | ⟨0, _⟩ => rfl
  | ⟨1, _⟩ => rfl

theorem pay4_apply (x : Vec Ideal S1x32x27008 .f32) (c : Fin 32) (l : Fin 27008) :
    k0_pay4 x (ix2 c l) = x (ix3 (0 : Fin 1) c l) := by
  unfold k0_pay4
  exact shapeCast_1ab_ab_apply x _ c l

theorem pay5_apply (x : Vec Ideal S1x32x27008 .f32) (c : Fin 32) (l : Fin 27008) :
    k0_pay5 x (ix2 c l) = x (ix3 (0 : Fin 1) c l) := by
  unfold k0_pay5
  exact shapeCast_1ab_ab_apply x _ c l

theorem pay4_lift (x : Vec Ideal S1x32x27008 .f32) (l : Fin 27008) (k : Fin (S32x27008.size 0)) :
    k0_pay4 x (reduces_S32x27008_S27008.lift (ix1 l) k) = x (ix3 (0 : Fin 1) k l) :=
  (congrArg (k0_pay4 x) (lift_chan _ l k)).trans (pay4_apply x k l)

theorem pay5_lift (x : Vec Ideal S1x32x27008 .f32) (l : Fin 27008) (k : Fin (S32x27008.size 0)) :
    k0_pay5 x (reduces_S32x27008_S27008.lift (ix1 l) k) = x (ix3 (0 : Fin 1) k l) :=
  (congrArg (k0_pay5 x) (lift_chan _ l k)).trans (pay5_apply x k l)

/-- The target logit at lane `l`. -/
theorem pay6_apply (x0 x1 : Vec Ideal S1x32x27008 .f32) (u : Fin 1) (l : Fin 27008) :
    k0_pay6 x0 x1 (ix2 u l) = tgtLogit (col x0 l) (col x1 l) := by
  unfold k0_pay6 tgtLogit
  refine (shapeCast_a_1a_apply _ _ u l).trans ?_
  refine (Ideal.multiReduction_add_single _ _ _ _ _ _).trans ?_
  refine Finset.sum_congr rfl fun k _ => ?_
  exact congrArg₂ (· * ·) (pay5_lift x1 l k) (pay4_lift x0 l k)

/-- The column maximum at lane `l`. -/
theorem pay7_apply (x0 : Vec Ideal S1x32x27008 .f32) (u : Fin 1) (l : Fin 27008) :
    k0_pay7 x0 (ix2 u l) = colMax (col x0 l) := by
  unfold k0_pay7 colMax
  refine (shapeCast_a_1a_apply _ _ u l).trans ?_
  refine (Ideal.multiReduction_maximumf_single _ _ _ _ _ _).trans ?_
  have e : (k0_pay4 x0 ∘ reduces_S32x27008_S27008.lift (ix1 l)) = col x0 l := funext fun k => by
    exact pay4_lift x0 l k
  exact congrArg (fun f => Finset.fold max _ f Finset.univ) e

/-- The sum of the shifted exponentials at lane `l`. -/
theorem sumExp_apply (x0 : Vec Ideal S1x32x27008 .f32) (u : Fin 1) (l : Fin 27008) :
    shapeCast S1x27008 (multiReduction .add [0] S27008
        (exp (subf (k0_pay4 x0) (broadcastTo S32x27008 (k0_pay7 x0) broadcasts_S1x27008_S32x27008)))
        0x00000000#32 reduces_S32x27008_S27008 (.inl rfl) rfl) shapeCasts_S27008_S1x27008 (ix2 u l)
      = sumExp (col x0 l) := by
  unfold sumExp
  refine (shapeCast_a_1a_apply _ _ u l).trans ?_
  refine (Ideal.multiReduction_add_single _ _ _ _ _ _).trans ?_
  refine Finset.sum_congr rfl fun k _ => ?_
  have hb : broadcastTo S32x27008 (k0_pay7 x0) broadcasts_S1x27008_S32x27008 (reduces_S32x27008_S27008.lift (ix1 l) k)
      = colMax (col x0 l) :=
    (congrArg (broadcastTo S32x27008 (k0_pay7 x0) broadcasts_S1x27008_S32x27008) (lift_chan _ l k)).trans
      ((broadcastTo_1b_ab_apply (k0_pay7 x0) _ k l).trans (pay7_apply x0 0 l))
  exact congrArg Ideal.exp (congrArg₂ (· - ·) (pay4_lift x0 l k) hb)

/-- The cross-entropy term at lane `l`. -/
theorem pay8_apply (x0 x1 : Vec Ideal S1x32x27008 .f32) (u : Fin 1) (l : Fin 27008) :
    k0_pay8 x0 x1 (ix2 u l) = px 0 (col x0 l) (col x1 l) := by
  unfold k0_pay8
  rw [subf_apply, addf_apply, log_apply, pay7_apply, sumExp_apply, pay6_apply, px_zero]

/-- The word "channel 0 of the target is zero" at lane `l`. -/
theorem pay9_apply (x1 : Vec Ideal S1x32x27008 .f32) (u : Fin 1) (l : Fin 27008) :
    k0_pay9 x1 (ix2 u l) = bgZero (col x1 l) := by
  unfold k0_pay9 bgZero
  have hs : extractStridedSlice S1x27008 ![0, 0] (k0_pay5 x1) slices_S32x27008_o0_0_S1x27008 (ix2 u l)
      = x1 (ix3 (0 : Fin 1) (0 : Fin 32) l) :=
    (extractStridedSlice_apply ![0, 0] (k0_pay5 x1) _ (ix2 u l) (ix2 (0 : Fin 32) l) fun a =>
      match a with
      | ⟨0, _⟩ => by show 0 = 0 + u.val; omega
      | ⟨1, _⟩ => by show l.val = 0 + l.val; omega).trans (pay5_apply x1 0 l)
  exact congrArg (Ideal.cmp .oeq · (Ideal.ofBits .f32 0x00000000#32)) hs

/-- The word "correct" at lane `l`. -/
theorem pay10_apply (x0 x1 : Vec Ideal S1x32x27008 .f32) (u : Fin 1) (l : Fin 27008) :
    k0_pay10 x0 x1 (ix2 u l) = IntOp.andi (hitMax (col x0 l) (col x1 l)) (bgZero (col x1 l)) := by
  unfold k0_pay10
  rw [andi_apply, cmpf_apply, pay6_apply, pay7_apply, pay9_apply]
  rfl

/-! ## The mask and one step at an index -/

/-- The one-bit word "lane `l`'s pixel number is below 65536" at grid point `i`: the tile's first pixel number
    (tile number times 27008) plus the lane, compared signed against 65536. -/
def maskW (i : grid0.Coords) (l : Fin 27008) : BitVec 1 :=
  IntOp.cmpi .slt (IntOp.addi (Scalar.muli (tileW i) 27008#32) (BitVec.ofNat 32 l.val)) 65536#32

/-- The same as a vector over the lanes, as the body builds it. -/
def maskV (w : BitVec 32) : IVec S1x27008 1 :=
  cmpi .slt (addi (broadcast S1x27008 (Scalar.muli w 27008#32)) (iota .tc S1x27008 32 [1] iota_S1x27008_d1_w32))
    (broadcast S1x27008 65536#32)

theorem maskV_apply (i : grid0.Coords) (u : Fin 1) (l : Fin 27008) : maskV (tileW i) (ix2 u l) = maskW i l := by
  unfold maskV maskW
  show IntOp.cmpi .slt (IntOp.addi (Scalar.muli (tileW i) 27008#32) (iota .tc S1x27008 32 [1] iota_S1x27008_d1_w32 (ix2 u l))) 65536#32 = _
  rw [iota_single_apply]

/-- The three masked rows a lane contributes, by the mask word `w` and the lane's two columns. -/
def mrow (w : BitVec 1) (k : Fin 3) (a b : Fin 32 → EReal) : EReal :=
  match k with
  | ⟨0, _⟩ => Scalar.select w (px 0 a b) (Scalar.ofBits (F := Ideal) .f32 0x00000000#32)
  | ⟨1, _⟩ => FloatOps.sitofp (F := Ideal) .f32 ((IntOp.andi (IntOp.andi (hitMax a b) (bgZero b)) w).setWidth 32)
  | ⟨2, _⟩ => FloatOps.sitofp (F := Ideal) .f32 ((IntOp.andi (bgZero b) w).setWidth 32)

/-- The accumulator's payload is the old contents plus the three masked rows laid one above the other. -/
theorem pay1_eq (v19 : FVec Ideal S1x27008 .f32) (v22 v24 : IVec S1x27008 1) (w : BitVec 32) (xs : Vec Ideal S3x27008 .f32) :
    k0_pay1 v19 v22 v24 w 27008#32 xs
      = addf xs (concatenate S3x27008 0
          [⟨S1x27008, select (maskV w) v19 (broadcast S1x27008 (Scalar.ofBits (F := Ideal) .f32 0x00000000#32))⟩,
           ⟨S1x27008, sitofp .f32 (extui 32 (andi v24 (maskV w)) natLt_1_32)⟩,
           ⟨S1x27008, sitofp .f32 (extui 32 (andi v22 (maskV w)) natLt_1_32)⟩]
          concatenates_S1x27008_S1x27008_S1x27008_S3x27008_d0) := by
  unfold k0_pay1
  exact shapeCast_self _ _

/-- Three one-row pieces laid one above the other, read at row `k`, lane `l`: piece `k` at lane `l`. -/
theorem rows3_apply {α : Type} (r0 r1 r2 : S1x27008.Idx → α) (h) (k : Fin 3) (l : Fin 27008) :
    concatenate S3x27008 0 [⟨S1x27008, r0⟩, ⟨S1x27008, r1⟩, ⟨S1x27008, r2⟩] h (ix2 k l)
      = (match k with | ⟨0, _⟩ => r0 | ⟨1, _⟩ => r1 | ⟨2, _⟩ => r2) (ix2 (0 : Fin 1) l) := by
  have hi : ∀ b : Fin S1x27008.rank, b.cast (rfl : S1x27008.rank = S3x27008.rank) ≠ (0 : Fin S3x27008.rank) →
      ((ix2 (0 : Fin 1) l : S1x27008.Idx) b).val = ((ix2 k l : S3x27008.Idx) (b.cast rfl)).val := fun b hb => by
    match b with
    | ⟨0, _⟩ => exact absurd rfl hb
    | ⟨1, _⟩ => rfl
  match k with
  | ⟨0, _⟩ =>
    exact concatenate_apply_piece (0 : Fin S3x27008.rank) _ h _ 0 (by show 0 < 3; omega) S1x27008 r0 rfl rfl 0 rfl (ix2 (0 : Fin 1) l) hi rfl
  | ⟨1, _⟩ =>
    exact concatenate_apply_piece (0 : Fin S3x27008.rank) _ h _ 1 (by show 1 < 3; omega) S1x27008 r1 rfl rfl 1 rfl (ix2 (0 : Fin 1) l) hi rfl
  | ⟨2, _⟩ =>
    exact concatenate_apply_piece (0 : Fin S3x27008.rank) _ h _ 2 (by show 2 < 3; omega) S1x27008 r2 rfl rfl 2 rfl (ix2 (0 : Fin 1) l) hi rfl

/-- ONE STEP at row `k`, lane `l`: the old entry plus the lane's masked row `k`. -/
theorem step_apply (i : grid0.Coords) (x0 x1 : Vec Ideal S1x32x27008 .f32) (xs : Vec Ideal S3x27008 .f32) (k : Fin 3) (l : Fin 27008) :
    step (F := Ideal) i x0 x1 xs (ix2 k l) = xs (ix2 k l) + mrow (maskW i l) k (col x0 l) (col x1 l) := by
  unfold step
  rw [pay1_eq, addf_apply, rows3_apply]
  congr 1
  match k with
  | ⟨0, _⟩ =>
    show select _ _ _ (ix2 (0 : Fin 1) l) = _
    rw [select_apply, maskV_apply, pay8_apply]; rfl
  | ⟨1, _⟩ =>
    show sitofp .f32 _ (ix2 (0 : Fin 1) l) = _
    rw [sitofp_apply, extui_apply, andi_apply, maskV_apply, pay10_apply]; rfl
  | ⟨2, _⟩ =>
    show sitofp .f32 _ (ix2 (0 : Fin 1) l) = _
    rw [sitofp_apply, extui_apply, andi_apply, maskV_apply, pay9_apply]; rfl

/-! ## The mask decided, and what a step does not depend on -/

/-- The tile number the body computes is the point's number mod 3. -/
theorem tileW_coords : ∀ t : Fin cfg0.N, tileW (grid0.coords t) = BitVec.ofNat 32 (t.val % 3) :=
  (by decide +kernel : ∀ t : Fin grid0.N, tileW (grid0.coords t) = BitVec.ofNat 32 (t.val % 3))

/-- The extents of what a fetch of the logits window moves. -/
theorem xsize0 : ∀ t : Fin cfg0.N, win0_0.xsize (grid0.coords t) 0 = 1 ∧ win0_0.xsize (grid0.coords t) 1 = 32
    ∧ win0_0.xsize (grid0.coords t) 2 = (if t.val % 3 = 2 then 11520 else 27008) :=
  (by decide +kernel : ∀ t : Fin grid0.N, win0_0.xsize (grid0.coords t) 0 = 1 ∧ win0_0.xsize (grid0.coords t) 1 = 32
    ∧ win0_0.xsize (grid0.coords t) 2 = (if t.val % 3 = 2 then 11520 else 27008))
theorem xsize1 : ∀ t : Fin cfg0.N, win0_1.xsize (grid0.coords t) 0 = 1 ∧ win0_1.xsize (grid0.coords t) 1 = 32
    ∧ win0_1.xsize (grid0.coords t) 2 = (if t.val % 3 = 2 then 11520 else 27008) :=
  (by decide +kernel : ∀ t : Fin grid0.N, win0_1.xsize (grid0.coords t) 0 = 1 ∧ win0_1.xsize (grid0.coords t) 1 = 32
    ∧ win0_1.xsize (grid0.coords t) 2 = (if t.val % 3 = 2 then 11520 else 27008))

theorem slt_small (w : BitVec 32) (h : w.toNat < 2147483648) : (w.slt 65536#32 = true ↔ w.toNat < 65536) := by
  simp only [BitVec.slt, BitVec.toInt, decide_eq_true_eq]
  have : (65536#32 : BitVec 32).toNat = 65536 := rfl
  rw [this]
  omega

theorem maskW_iff (t : Fin cfg0.N) (l : Fin 27008) :
    maskW (grid0.coords t) l = 1#1 ↔ (t.val % 3) * 27008 + l.val < 65536 := by
  unfold maskW
  rw [tileW_coords t]
  have hl := l.isLt
  have hτ : t.val % 3 < 3 := Nat.mod_lt _ (by omega)
  have hn : (IntOp.addi (Scalar.muli (BitVec.ofNat 32 (t.val % 3)) 27008#32) (BitVec.ofNat 32 l.val)).toNat = (t.val % 3) * 27008 + l.val := by
    show ((BitVec.ofNat 32 (t.val % 3)) * 27008#32 + (BitVec.ofNat 32 l.val)).toNat = _
    simp only [BitVec.toNat_add, BitVec.toNat_mul, BitVec.toNat_ofNat]
    omega
  show BitVec.ofBool (BitVec.slt _ _) = 1#1 ↔ _
  rw [← hn]
  rw [← slt_small _ (by rw [hn]; omega)]
  cases (BitVec.slt (IntOp.addi (Scalar.muli (BitVec.ofNat 32 (t.val % 3)) 27008#32) (BitVec.ofNat 32 l.val)) 65536#32) <;> decide

theorem bit_cases : ∀ w : BitVec 1, w = 0#1 ∨ w = 1#1 := by decide

theorem mrow_zero (k : Fin 3) (a b : Fin 32 → EReal) : mrow 0#1 k a b = 0 := by
  match k with
  | ⟨0, _⟩ => show Scalar.select 0#1 _ _ = _; rw [select_zero]; exact Ideal.ofBits_zero_f32
  | ⟨1, _⟩ =>
    show ((((IntOp.andi (IntOp.andi (hitMax a b) (bgZero b)) 0#1).setWidth 32).toInt : ℝ) : EReal) = 0
    rw [show IntOp.andi (IntOp.andi (hitMax a b) (bgZero b)) 0#1 = 0#1 from BitVec.and_zero]; simp
  | ⟨2, _⟩ =>
    show ((((IntOp.andi (bgZero b) 0#1).setWidth 32).toInt : ℝ) : EReal) = 0
    rw [show IntOp.andi (bgZero b) 0#1 = 0#1 from BitVec.and_zero]; simp

theorem and_one1 : ∀ x : BitVec 1, IntOp.andi x 1#1 = x := by decide

theorem mrow_one (k : Fin 3) (a b : Fin 32 → EReal) : mrow 1#1 k a b = px k a b := by
  match k with
  | ⟨0, _⟩ => show Scalar.select 1#1 _ _ = _; rw [select_one]; rfl
  | ⟨1, _⟩ => show FloatOps.sitofp (F := Ideal) .f32 ((IntOp.andi (IntOp.andi (hitMax a b) (bgZero b)) 1#1).setWidth 32) = _; rw [and_one1]; rfl
  | ⟨2, _⟩ => show FloatOps.sitofp (F := Ideal) .f32 ((IntOp.andi (bgZero b) 1#1).setWidth 32) = _; rw [and_one1]; rfl

/-- A lane whose mask word is 1 lies in the part of the block that the fetch moves. -/
theorem moved0_of_mask (t : Fin cfg0.N) (c : Fin 32) (l : Fin 27008) (h : maskW (grid0.coords t) l = 1#1) :
    win0_0.moved (grid0.coords t) (ix3 (0 : Fin 1) c l) = true := by
  rw [Pipeline.Window.moved_iff]
  have hx := xsize0 t
  have hm := (maskW_iff t l).mp h
  intro a
  match a with
  | ⟨0, _⟩ => show 0 < win0_0.xsize (grid0.coords t) 0; rw [hx.1]; omega
  | ⟨1, _⟩ => show c.val < win0_0.xsize (grid0.coords t) 1; rw [hx.2.1]; exact c.isLt
  | ⟨2, _⟩ => show l.val < win0_0.xsize (grid0.coords t) 2; rw [hx.2.2]; split <;> omega
theorem moved1_of_mask (t : Fin cfg0.N) (c : Fin 32) (l : Fin 27008) (h : maskW (grid0.coords t) l = 1#1) :
    win0_1.moved (grid0.coords t) (ix3 (0 : Fin 1) c l) = true := by
  rw [Pipeline.Window.moved_iff]
  have hx := xsize1 t
  have hm := (maskW_iff t l).mp h
  intro a
  match a with
  | ⟨0, _⟩ => show 0 < win0_1.xsize (grid0.coords t) 0; rw [hx.1]; omega
  | ⟨1, _⟩ => show c.val < win0_1.xsize (grid0.coords t) 1; rw [hx.2.1]; exact c.isLt
  | ⟨2, _⟩ => show l.val < win0_1.xsize (grid0.coords t) 2; rw [hx.2.2]; split <;> omega

/-- So such a lane's column does not depend on what stands past the array's end. -/
theorem fill_col0 (t : Fin cfg0.N) (d d' : S1x32x27008.Idx → Elt Ideal .f32) (b : (win0_0.xblock (grid0.coords t)).Idx → Elt Ideal .f32)
    (l : Fin 27008) (h : maskW (grid0.coords t) l = 1#1) :
    col (win0_0.fill (grid0.coords t) d b) l = col (win0_0.fill (grid0.coords t) d' b) l := by
  funext c
  show win0_0.fill (grid0.coords t) d b (ix3 (0 : Fin 1) c l) = win0_0.fill (grid0.coords t) d' b (ix3 (0 : Fin 1) c l)
  unfold Pipeline.Window.fill
  rw [dif_pos (moved0_of_mask t c l h), dif_pos (moved0_of_mask t c l h)]
theorem fill_col1 (t : Fin cfg0.N) (d d' : S1x32x27008.Idx → Elt Ideal .f32) (b : (win0_1.xblock (grid0.coords t)).Idx → Elt Ideal .f32)
    (l : Fin 27008) (h : maskW (grid0.coords t) l = 1#1) :
    col (win0_1.fill (grid0.coords t) d b) l = col (win0_1.fill (grid0.coords t) d' b) l := by
  funext c
  show win0_1.fill (grid0.coords t) d b (ix3 (0 : Fin 1) c l) = win0_1.fill (grid0.coords t) d' b (ix3 (0 : Fin 1) c l)
  unfold Pipeline.Window.fill
  rw [dif_pos (moved1_of_mask t c l h), dif_pos (moved1_of_mask t c l h)]

/-- ONE STEP does not depend on what stands in the two blocks past the array's end. -/
theorem step_fill (t : Fin cfg0.N) (d0 d0' d1 d1' : S1x32x27008.Idx → Elt Ideal .f32)
    (b0 : (win0_0.xblock (grid0.coords t)).Idx → Elt Ideal .f32) (b1 : (win0_1.xblock (grid0.coords t)).Idx → Elt Ideal .f32)
    (xs : Vec Ideal S3x27008 .f32) :
    step (F := Ideal) (grid0.coords t) (win0_0.fill (grid0.coords t) d0 b0) (win0_1.fill (grid0.coords t) d1 b1) xs
      = step (F := Ideal) (grid0.coords t) (win0_0.fill (grid0.coords t) d0' b0) (win0_1.fill (grid0.coords t) d1' b1) xs := by
  funext j
  obtain ⟨k, l, rfl⟩ : ∃ (k : Fin 3) (l : Fin 27008), j = ix2 k l := ⟨j 0, j 1, eq_ix2 j⟩
  rw [step_apply, step_apply]
  congr 1
  rcases bit_cases (maskW (grid0.coords t) l) with h | h
  · rw [h, mrow_zero, mrow_zero]
  · rw [fill_col0 t d0 d0' b0 l h, fill_col1 t d1 d1' b1 l h]

end Cert.ReferenceIdeal.RPay

end
-- ==== Proof.RefFrame.lean ====
/-
  The frame of the reference program, by hand: its kernel's input blocks may overhang their arrays (the last of an
  image's three lane tiles), so the body is handed staging buffers that hold the block's part inside the array and
  anything past it. The proof data state the accumulator after each point in closed form over the blocks padded with
  zeros — which is sound because one step does not depend on the lanes past the array's end: they are masked —, the
  inputs' buffers as found, and the output block at an image's last tile as the accumulator's lane sums. The body's
  obligation is the three control cases' runs; the launch is the library's, with the host lines after the region.
-/
import proofs.«163244_g2000502686089012_pallasbulk_752_2_alg».proof.Proof.RefPay
import Idealize.ShloMosaic.PureOps.Ideal

set_option maxRecDepth 16384

noncomputable section

namespace Cert.ReferenceIdeal.RF

open Cert.ReferenceIdeal Cert.ReferenceIdeal.Gen Cert.ReferenceIdeal.RPay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks as the body finds them, and the accumulation -/

/-- Logit block of point `t` as a full 1 x 32 x 27008 block: the part inside the array, and zero in the lanes past
    the array's end (only an image's last tile has such lanes; nothing below depends on what stands there). -/
def X0 (c : Dev nD) (t : Fin cfg0.N) : Vec Ideal S1x32x27008 .f32 :=
  win0_0.fill (grid0.coords t) (fun _ => Scalar.ofBits (F := Ideal) .f32 0#32) (iblk m c 0 t)
/-- The target block likewise. -/
def X1 (c : Dev nD) (t : Fin cfg0.N) : Vec Ideal S1x32x27008 .f32 :=
  win0_1.fill (grid0.coords t) (fun _ => Scalar.ofBits (F := Ideal) .f32 0#32) (iblk m c 1 t)

/-- The accumulator after point `n`: one step over the cleared accumulator at an image's first tile, one step over
    what the point before left elsewhere. -/
def accAt (c : Dev nD) : (n : ℕ) → n < cfg0.N → Vec Ideal S3x27008 .f32
  | 0, hn => step (grid0.coords ⟨0, hn⟩) (X0 m c ⟨0, hn⟩) (X1 m c ⟨0, hn⟩) (k0_pay3 (F := Ideal))
  | n + 1, hn =>
    if (n + 1) % 3 = 0 then step (grid0.coords ⟨n + 1, hn⟩) (X0 m c ⟨n + 1, hn⟩) (X1 m c ⟨n + 1, hn⟩) (k0_pay3 (F := Ideal))
    else step (grid0.coords ⟨n + 1, hn⟩) (X0 m c ⟨n + 1, hn⟩) (X1 m c ⟨n + 1, hn⟩) (accAt c n (Nat.lt_of_succ_lt hn))

theorem accAt_first (c : Dev nD) (t : Fin cfg0.N) (h : t.val % 3 = 0) :
    accAt m c t.val t.isLt = step (grid0.coords t) (X0 m c t) (X1 m c t) (k0_pay3 (F := Ideal)) := by
  obtain ⟨n, hn⟩ := t
  cases n with
  | zero => rfl
  | succ n => exact if_pos h

theorem accAt_next (c : Dev nD) (t : Fin cfg0.N) (h : ¬t.val % 3 = 0) :
    accAt m c t.val t.isLt = step (grid0.coords t) (X0 m c t) (X1 m c t) (accAt m c (t.val - 1) (Nat.lt_of_le_of_lt (Nat.sub_le _ _) t.isLt)) := by
  obtain ⟨n, hn⟩ := t
  cases n with
  | zero => exact absurd (Nat.zero_mod _) h
  | succ n => exact if_neg h

/-- The output block an image's last tile stores: the lane sums of the accumulator. -/
def outAt (c : Dev nD) (t : Fin cfg0.N) : Vec Ideal S1x3x128 .f32 := k0_pay2 (accAt m c t.val t.isLt)

/-! ## The region's invariant -/

def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => X0 m c t
    | ⟨1, _⟩ => X1 m c t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = outAt m c t := by dsimp only [dats]

/-- What the body finds in an input's staging buffer: the block's part inside the array, anything past it. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl

/-- What the body must leave in an input's staging buffer: the same. -/
theorem leaves0_0 (c : Dev nD) (t : Fin cfg0.N) :
    ((dats m 0 c).leaves 0 t : sProp 𝕄) = iprop(∃ d, owns (c : Thread nD τ) (ms0_0 t) fullShare (win0_0.fill (grid0.coords t) d (iblk m c 0 t))) := by
  unfold Dat.leaves; rw [liveAt0_0 t]
  show iprop(∃ d, owns (c : Thread nD τ) (ms0_0 t) fullShare (win0_0.fill (grid0.coords t) d (win0_0.cut (grid0.coords t) ((dats m 0 c).after 0 t)))) = _
  rw [after0_0]; unfold X0; rw [Window.cut_fill]
theorem leaves0_1 (c : Dev nD) (t : Fin cfg0.N) :
    ((dats m 0 c).leaves 1 t : sProp 𝕄) = iprop(∃ d, owns (c : Thread nD τ) (ms0_1 t) fullShare (win0_1.fill (grid0.coords t) d (iblk m c 1 t))) := by
  unfold Dat.leaves; rw [liveAt0_1 t]
  show iprop(∃ d, owns (c : Thread nD τ) (ms0_1 t) fullShare (win0_1.fill (grid0.coords t) d (win0_1.cut (grid0.coords t) ((dats m 0 c).after 1 t)))) = _
  rw [after0_1]; unfold X1; rw [Window.cut_fill]
theorem leaves0_2_idle (c : Dev nD) (t : Fin cfg0.N) (h : ¬cond0_1 (grid0.coords t)) :
    ((dats m 0 c).leaves 2 t : sProp 𝕄) = iprop(∃ d, owns (c : Thread nD τ) (ms0_2 t) fullShare ((dats m 0 c).before 2 t d)) := by
  unfold Dat.leaves; rw [idleAt0_2 t h, noFlush0_2 t h]
theorem leaves0_2_live (c : Dev nD) (t : Fin cfg0.N) (h : cond0_1 (grid0.coords t)) :
    ((dats m 0 c).leaves 2 t : sProp 𝕄) = owns (c : Thread nD τ) (ms0_2 t) fullShare (outAt m c t) := by
  unfold Dat.leaves; rw [liveAt0_2 t h]
  show owns (c : Thread nD τ) (ms0_2 t) fullShare ((dats m 0 c).after 2 t) = _
  rw [after0_2]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t)

set_option maxHeartbeats 4800000 in
/-- The body at any point. The input buffers hold their blocks' parts inside the array and anything past it; the
    point's number mod 3 says which case it is; the case's run applies; the accumulator is handed over at what the
    point before left (at anything at an image's first tile) and taken back at this point's contents, which do not
    depend on what stood past the array's end; the inputs' buffers are handed back as found; the output block is
    handed back untouched except at an image's last tile, where it holds the accumulator's lane sums. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [leaves0_0, leaves0_1]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 3 = 0
  · have hc0 : cond0_0 (grid0.coords t) := (hcond0_0 t).mpr h0
    have hc1 : ¬cond0_1 (grid0.coords t) := fun h => by have := (hcond0_1 t).mp h; omega
    rw [leaves0_2_idle m c t hc1]
    by_cases hz : t.val = 0
    ·
        rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ hc0 hc1 (win0_0.fill (grid0.coords t) d0 (iblk m c 0 t)) (win0_1.fill (grid0.coords t) d1 (iblk m c 1 t))).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro
            rw [accAt_first m c t h0]; unfold X0 X1
            rw [step_fill t _ d0 _ d1, ← sout0_A_0_eq c (grid0.coords t) (ms0_0 t) (hs0_0 t) (ms0_1 t) (hs0_1 t) (ms0_2 t) (hs0_2 t) scM0_0 (Memref.isWhole_whole _) hc0 hc1]
            unfold sout0_A_0
            exact View.read_writes_of_cover _ _ _ _ _ (scover0_A_0 c _ _ _ _ _ _ _ _ _ _ _ _ _)
          iexact Hg
        isplitl [Ho]; · iexact Ho
        isplitl [H0]; · iexists d0; iexact H0
        isplitl [H1]; · iexists d1; iexact H1
        iexists _; iexact H2
    ·
        rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ hc0 hc1 (win0_0.fill (grid0.coords t) d0 (iblk m c 0 t)) (win0_1.fill (grid0.coords t) d1 (iblk m c 1 t))).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro
            rw [accAt_first m c t h0]; unfold X0 X1
            rw [step_fill t _ d0 _ d1, ← sout0_A_0_eq c (grid0.coords t) (ms0_0 t) (hs0_0 t) (ms0_1 t) (hs0_1 t) (ms0_2 t) (hs0_2 t) scM0_0 (Memref.isWhole_whole _) hc0 hc1]
            unfold sout0_A_0
            exact View.read_writes_of_cover _ _ _ _ _ (scover0_A_0 c _ _ _ _ _ _ _ _ _ _ _ _ _)
          iexact Hg
        isplitl [Ho]; · iexact Ho
        isplitl [H0]; · iexists d0; iexact H0
        isplitl [H1]; · iexists d1; iexact H1
        iexists _; iexact H2
  · have hc0 : ¬cond0_0 (grid0.coords t) := fun h => h0 ((hcond0_0 t).mp h)
    have hz : t.val ≠ 0 := fun h => h0 (by rw [h])
    by_cases h1 : t.val % 3 = 2
    · have hc1 : cond0_1 (grid0.coords t) := (hcond0_1 t).mpr h1
      rw [leaves0_2_live m c t hc1]
      ·
        rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ hc0 hc1 (win0_0.fill (grid0.coords t) d0 (iblk m c 0 t)) (win0_1.fill (grid0.coords t) d1 (iblk m c 1 t)) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro
            rw [accAt_next m c t h0]; unfold X0 X1
            rw [step_fill t _ d0 _ d1, ← sout0_C_0_eq c (grid0.coords t) (ms0_0 t) (hs0_0 t) (ms0_1 t) (hs0_1 t) (ms0_2 t) (hs0_2 t) scM0_0 (Memref.isWhole_whole _) hc0 hc1]
            unfold sout0_C_0
            exact View.read_writes_of_cover _ _ _ _ _ (scover0_C_0 c _ _ _ _ _ _ _ _ _ _ _ _ _ _)
          iexact Hg
        isplitl [Ho]; · iexact Ho
        isplitl [H0]; · iexists d0; iexact H0
        isplitl [H1]; · iexists d1; iexact H1
        unfold owns; iexists _; isplitr
        swap; · iexact H2
        ipureintro
        unfold outAt
        rw [accAt_next m c t h0]; unfold X0 X1
        rw [step_fill t _ d0 _ d1, ← out0_C_2_eq c (grid0.coords t) (ms0_0 t) (hs0_0 t) (ms0_1 t) (hs0_1 t) (ms0_2 t) (hs0_2 t) scM0_0 (Memref.isWhole_whole _) hc0 hc1]
        unfold out0_C_2
        exact View.read_writes_of_cover _ _ _ _ _ (cover0_C_2 c _ _ _ _ _ _ _ _ _ _ _ _ _ _)
    · have hc1 : ¬cond0_1 (grid0.coords t) := fun h => h1 ((hcond0_1 t).mp h)
      rw [leaves0_2_idle m c t hc1]
      ·
        rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ hc0 hc1 (win0_0.fill (grid0.coords t) d0 (iblk m c 0 t)) (win0_1.fill (grid0.coords t) d1 (iblk m c 1 t)) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro
            rw [accAt_next m c t h0]; unfold X0 X1
            rw [step_fill t _ d0 _ d1, ← sout0_B_0_eq c (grid0.coords t) (ms0_0 t) (hs0_0 t) (ms0_1 t) (hs0_1 t) (ms0_2 t) (hs0_2 t) scM0_0 (Memref.isWhole_whole _) hc0 hc1]
            unfold sout0_B_0
            exact View.read_writes_of_cover _ _ _ _ _ (scover0_B_0 c _ _ _ _ _ _ _ _ _ _ _ _ _ _)
          iexact Hg
        isplitl [Ho]; · iexact Ho
        isplitl [H0]; · iexists d0; iexact H0
        isplitl [H1]; · iexists d1; iexact H1
        iexists _; iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option backward.isDefEq.respectTransparency.types false in
/-- Every weakly fair execution of the reference program terminates, with every array of the pipeline at what the
    library computes from the proof data and every other unscoped buffer as the host lines after the region leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The reference program's frame: it runs, and its argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.RF

end
-- ==== Proof.RefAcc.lean ====
/-
  The reference kernel's value, read off its frame.

  Image `n`'s three points add to the accumulator, at row `k` and lane `l`, the per-pixel quantity `k` of pixels
  `l`, `27008 + l` and `2 * 27008 + l` of the image — the last only where it is below 65536 —, starting from zero:
  the blocks' columns at lanes inside the image are columns of the two arrays, and the lanes past the image's end
  add zero. At the image's last tile the accumulator's rows are summed over the lanes into the image's slab of the
  16 x 3 x 128 output array.
-/
import proofs.«163244_g2000502686089012_pallasbulk_752_2_alg».proof.Proof.RefFrame
import proofs.«163244_g2000502686089012_pallasbulk_752_2_alg».proof.Proof.LibTileSums

set_option maxRecDepth 16384

noncomputable section

namespace Cert.ReferenceIdeal.RValue

open Idealize.ShloMosaic Idealize.ShloMosaic.ValueIdx Idealize.ShloMosaic.TcCoe Idealize.SL.Sem
open Cert.ReferenceIdeal Cert.ReferenceIdeal.Gen Cert.Spec Cert.ReferenceIdeal.RF Cert.ReferenceIdeal.RPay

variable (m : (ℓ : Loc nD τ sig) → Buf (Elt Ideal) ℓ) (ρ : Dev nD → PrngReg)

/-! ## The body's remaining payloads at an index -/

/-- The cleared accumulator is zero everywhere. -/
theorem pay3_apply (j : S3x27008.Idx) : k0_pay3 (F := Ideal) j = 0 := by
  unfold k0_pay3
  rw [shapeCast_self]
  exact Ideal.ofBits_zero_f32

/-- Over row `k` of the reduced shape, the source index with lane `l` inserted is `(k, l)`. -/
theorem lift_lane (h : S3x27008.Reduces [1] S3) (k : Fin 3) (l : Fin 27008) :
    h.lift (ix1 k) l = ix2 k l := by
  funext c
  match c with
  | ⟨0, _⟩ => rfl
  | ⟨1, _⟩ => rfl

/-- A vector cast to a one-column matrix reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its lanes reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The output block's payload: row `k`, at every lane `j`, is the sum of accumulator row `k` over its lanes. -/
theorem pay2_apply (S : Vec Ideal S3x27008 .f32) (u : Fin 1) (k : Fin 3) (j : Fin 128) :
    k0_pay2 S (ix3 u k j) = ∑ l : Fin 27008, S (ix2 k l) := by
  unfold k0_pay2
  refine (shapeCast_ab_1ab_apply _ _ u k j).trans ?_
  refine (broadcastTo_a1_ab_apply _ _ k j).trans ?_
  refine (congrFun (shapeCast_self _ _) _).trans ?_
  refine (shapeCast_a_a1_apply _ _ k 0).trans ?_
  refine (Ideal.multiReduction_add_single _ _ _ _ _ _).trans ?_
  exact Finset.sum_congr rfl fun l _ => congrArg S (lift_lane _ k l)

/-! ## The blocks' columns as columns of the arrays -/

/-- The two arrays as the region finds them (the host reshapes of the two arguments), image by channel by pixel. -/
def arrA (c : Dev nD) : Spec.Arr := V m c main_call0_v0
def arrB (c : Dev nD) : Spec.Arr := V m c main_call0_v1

/-- The block index of the two input windows at point `t`: image `t / 3`, tile `t % 3`. -/
theorem index0 : ∀ t : Fin cfg0.N, win0_0.index t 0 = t.val / 3 ∧ win0_0.index t 1 = 0 ∧ win0_0.index t 2 = t.val % 3 :=
  (by decide +kernel : ∀ t : Fin grid0.N, win0_0.index t 0 = t.val / 3 ∧ win0_0.index t 1 = 0 ∧ win0_0.index t 2 = t.val % 3)
theorem index1 : ∀ t : Fin cfg0.N, win0_1.index t 0 = t.val / 3 ∧ win0_1.index t 1 = 0 ∧ win0_1.index t 2 = t.val % 3 :=
  (by decide +kernel : ∀ t : Fin grid0.N, win0_1.index t 0 = t.val / 3 ∧ win0_1.index t 1 = 0 ∧ win0_1.index t 2 = t.val % 3)

/-- A lane inside the array: its column of the zero-padded block is the array's column at the lane's pixel. -/
theorem X0_col (c : Dev nD) (t : Fin cfg0.N) (l : Fin 27008) (h : (t.val % 3) * 27008 + l.val < 65536) :
    col (X0 m c t) l = fun ch => arrA m c (ix3 (⟨t.val / 3, by have := t.isLt; have : cfg0.N = 48 := N_0; omega⟩ : Fin 16) ch (⟨(t.val % 3) * 27008 + l.val, h⟩ : Fin 65536)) := by
  funext ch
  show win0_0.fill (grid0.coords t) _ (iblk m c 0 t) (ix3 (0 : Fin 1) ch l) = _
  unfold Pipeline.Window.fill
  rw [dif_pos (moved0_of_mask t ch l ((maskW_iff t l).mpr h))]
  unfold iblk arrA
  rw [View.read_apply]
  refine congrArg (V m c main_call0_v0) (funext fun a => Fin.ext ?_)
  have hi := index0 t
  match a with
  | ⟨0, _⟩ => show win0_0.index t 0 * 1 + 1 * 0 = t.val / 3; rw [hi.1]; omega
  | ⟨1, _⟩ => show win0_0.index t 1 * 32 + 1 * ch.val = ch.val; rw [hi.2.1]; omega
  | ⟨2, _⟩ => show win0_0.index t 2 * 27008 + 1 * l.val = t.val % 3 * 27008 + l.val; rw [hi.2.2]; omega

/-- A lane inside the array: its column of the zero-padded block is the array's column at the lane's pixel. -/
theorem X1_col (c : Dev nD) (t : Fin cfg0.N) (l : Fin 27008) (h : (t.val % 3) * 27008 + l.val < 65536) :
    col (X1 m c t) l = fun ch => arrB m c (ix3 (⟨t.val / 3, by have := t.isLt; have : cfg0.N = 48 := N_0; omega⟩ : Fin 16) ch (⟨(t.val % 3) * 27008 + l.val, h⟩ : Fin 65536)) := by
  funext ch
  show win0_1.fill (grid0.coords t) _ (iblk m c 1 t) (ix3 (0 : Fin 1) ch l) = _
  unfold Pipeline.Window.fill
  rw [dif_pos (moved1_of_mask t ch l ((maskW_iff t l).mpr h))]
  unfold iblk arrB
  rw [View.read_apply]
  refine congrArg (V m c main_call0_v1) (funext fun a => Fin.ext ?_)
  have hi := index1 t
  match a with
  | ⟨0, _⟩ => show win0_1.index t 0 * 1 + 1 * 0 = t.val / 3; rw [hi.1]; omega
  | ⟨1, _⟩ => show win0_1.index t 1 * 32 + 1 * ch.val = ch.val; rw [hi.2.1]; omega
  | ⟨2, _⟩ => show win0_1.index t 2 * 27008 + 1 * l.val = t.val % 3 * 27008 + l.val; rw [hi.2.2]; omega

/-! ## What one point adds, and the accumulator in closed form -/

/-- The per-pixel quantity `k` of pixel `p` of image `n`, zero outside the arrays' extents. -/
def pix (c : Dev nD) (k : Fin 3) (n p : ℕ) : EReal :=
  if h : n < 16 ∧ p < 65536 then
    px k (fun ch => arrA m c (ix3 (⟨n, h.1⟩ : Fin 16) ch (⟨p, h.2⟩ : Fin 65536))) (fun ch => arrB m c (ix3 (⟨n, h.1⟩ : Fin 16) ch (⟨p, h.2⟩ : Fin 65536)))
  else 0

/-- What point `t` adds to the accumulator at row `k`, lane `l`: the lane's pixel's quantity if the pixel lies inside
    the image, zero if the lane is past the image's end. -/
theorem mrow_point (c : Dev nD) (t : Fin cfg0.N) (k : Fin 3) (l : Fin 27008) :
    mrow (maskW (grid0.coords t) l) k (col (X0 m c t) l) (col (X1 m c t) l)
      = if (t.val % 3) * 27008 + l.val < 65536 then pix m c k (t.val / 3) ((t.val % 3) * 27008 + l.val) else 0 := by
  have hN : t.val < 48 := lt_of_lt_of_eq t.isLt (show cfg0.N = 48 from N_0)
  split
  · rename_i h
    rw [(maskW_iff t l).mpr h, mrow_one, X0_col m c t l h, X1_col m c t l h]
    unfold pix
    rw [dif_pos ⟨by omega, h⟩]
  · rename_i h
    rcases bit_cases (maskW (grid0.coords t) l) with hw | hw
    · rw [hw, mrow_zero]
    · exact absurd ((maskW_iff t l).mp hw) h

theorem accAt_congr (c : Dev nD) {a b : ℕ} (h : a = b) (ha : a < cfg0.N) (hb : b < cfg0.N) : accAt m c a ha = accAt m c b hb := by
  subst h; rfl

/-- Point `τ` of image `n`. -/
def pt (n : Fin 16) (τ : Fin 3) : Fin cfg0.N := ⟨3 * n.val + τ.val, by have : cfg0.N = 48 := N_0; have := n.isLt; have := τ.isLt; omega⟩

/-- What tile `τ` of image `n` adds at row `k`, lane `l`. -/
def tileTerm (c : Dev nD) (k : Fin 3) (n : Fin 16) (l : Fin 27008) (τ : Fin 3) : EReal :=
  if τ.val * 27008 + l.val < 65536 then pix m c k n.val (τ.val * 27008 + l.val) else 0

theorem mrow_pt (c : Dev nD) (n : Fin 16) (τ : Fin 3) (k : Fin 3) (l : Fin 27008) :
    mrow (maskW (grid0.coords (pt n τ)) l) k (col (X0 m c (pt n τ)) l) (col (X1 m c (pt n τ)) l) = tileTerm m c k n l τ := by
  rw [mrow_point]
  have h1 : (pt n τ).val % 3 = τ.val := by show (3 * n.val + τ.val) % 3 = τ.val; have := τ.isLt; omega
  have h2 : (pt n τ).val / 3 = n.val := by show (3 * n.val + τ.val) / 3 = n.val; have := τ.isLt; omega
  rw [h1, h2]; rfl

theorem accAt_apply_first (c : Dev nD) (t : Fin cfg0.N) (h : t.val % 3 = 0) (k : Fin 3) (l : Fin 27008) :
    accAt m c t.val t.isLt (ix2 k l) = mrow (maskW (grid0.coords t) l) k (col (X0 m c t) l) (col (X1 m c t) l) := by
  rw [accAt_first m c t h, step_apply, pay3_apply, zero_add]

theorem accAt_apply_next (c : Dev nD) (t s : Fin cfg0.N) (h : ¬t.val % 3 = 0) (hs : s.val + 1 = t.val) (k : Fin 3) (l : Fin 27008) :
    accAt m c t.val t.isLt (ix2 k l)
      = accAt m c s.val s.isLt (ix2 k l) + mrow (maskW (grid0.coords t) l) k (col (X0 m c t) l) (col (X1 m c t) l) := by
  rw [accAt_next m c t h, step_apply]
  have e : accAt m c (t.val - 1) (Nat.lt_of_le_of_lt (Nat.sub_le _ _) t.isLt) = accAt m c s.val s.isLt :=
    accAt_congr m c (by omega) _ _
  rw [e]

/-- After an image's last tile the accumulator holds, at row `k`, lane `l`, the sum over the image's three tiles of
    what each added there. -/
theorem accAt_last (c : Dev nD) (n : Fin 16) (k : Fin 3) (l : Fin 27008) :
    accAt m c (pt n 2).val (pt n 2).isLt (ix2 k l) = ∑ τ : Fin 3, tileTerm m c k n l τ := by
  have h0 : (pt n 0).val % 3 = 0 := by show (3 * n.val + 0) % 3 = 0; omega
  have h1 : ¬(pt n 1).val % 3 = 0 := by show ¬(3 * n.val + 1) % 3 = 0; omega
  have h2 : ¬(pt n 2).val % 3 = 0 := by show ¬(3 * n.val + 2) % 3 = 0; omega
  rw [accAt_apply_next m c (pt n 2) (pt n 1) h2 rfl, accAt_apply_next m c (pt n 1) (pt n 0) h1 rfl,
    accAt_apply_first m c (pt n 0) h0, mrow_pt, mrow_pt, mrow_pt, Fin.sum_univ_three]

/-! ## The output array after the region -/

/-- The 16 x 3 x 128 array of lane sums: image `n`'s row `k` holds, at every lane, the sum over the 27008 lanes and
    the three tiles of what each tile added. -/
def outArr (c : Dev nD) : (⟨3, ![16, 3, 128]⟩ : Shape).Idx → EReal :=
  fun i => ∑ l : Fin 27008, ∑ τ : Fin 3, tileTerm m c (i 1) (i 0) l τ

/-- The output block an image's last tile stores is that image's slab of the array. -/
theorem outAt_pt (c : Dev nD) (n : Fin 16) (u : Fin 1) (k : Fin 3) (j : Fin 128) :
    outAt m c (pt n 2) (ix3 u k j) = ∑ l : Fin 27008, ∑ τ : Fin 3, tileTerm m c k n l τ := by
  unfold outAt
  rw [pay2_apply]
  exact Finset.sum_congr rfl fun l _ => accAt_last m c n k l

end Cert.ReferenceIdeal.RValue

end
-- ==== Proof.RefArr.lean ====
/-
  The output array after the reference's region: the block written back at an image's last tile is the image's slab of
  the array of lane sums, and the sixteen slabs cover the 16 x 3 x 128 array.
-/
import proofs.«163244_g2000502686089012_pallasbulk_752_2_alg».proof.Proof.RefAcc
import Idealize.ShloMosaic.Lib.Pipeline.Value

set_option maxRecDepth 16384

noncomputable section

namespace Cert.ReferenceIdeal.RValue

open Idealize.ShloMosaic Idealize.ShloMosaic.ValueIdx Idealize.ShloMosaic.TcCoe Idealize.SL.Sem
open Cert.ReferenceIdeal Cert.ReferenceIdeal.Gen Cert.Spec Cert.ReferenceIdeal.RF Cert.ReferenceIdeal.RPay

variable (m : (ℓ : Loc nD τ sig) → Buf (Elt Ideal) ℓ) (ρ : Dev nD → PrngReg)

/-! ## The output array after the region -/

theorem index2 : ∀ t : Fin cfg0.N, win0_2.index t 0 = t.val / 3 ∧ win0_2.index t 1 = 0 ∧ win0_2.index t 2 = 0 :=
  (by decide +kernel : ∀ t : Fin grid0.N, win0_2.index t 0 = t.val / 3 ∧ win0_2.index t 1 = 0 ∧ win0_2.index t 2 = 0)

/-- A point that writes the output block back is some image's last tile. -/
theorem exists_pt_of_flush (t : Fin cfg0.N) (hf : (cfg0.win 2).flush t = true) : ∃ n : Fin 16, t = pt n 2 := by
  have h2 : t.val % 3 = 2 := (flush0_2 t).mp hf
  have hN : t.val < 48 := lt_of_lt_of_eq t.isLt (show cfg0.N = 48 from N_0)
  exact ⟨⟨t.val / 3, by omega⟩, Fin.ext (by show t.val = 3 * (t.val / 3) + 2; omega)⟩

set_option maxRecDepth 65536 in
/-- What such a point writes back is the image's slab of `outArr`. -/
theorem flushed_eq (c : Dev nD) (t : Fin cfg0.N) (hf : (cfg0.win 2).flush t = true) :
    (dats m 0 c).flushed 2 t = ((cfg0.win 2).blk t).view.read (Elt Ideal) (outArr m c) := by
  obtain ⟨n, rfl⟩ := exists_pt_of_flush t hf
  show (cfg0.win 2).cut (grid0.coords (pt n 2)) ((dats m 0 c).after 2 (pt n 2)) = _
  rw [after0_2]
  funext y
  rw [View.read_apply]
  obtain ⟨u, k, j, rfl⟩ : ∃ (u : Fin 1) (k : Fin 3) (j : Fin 128), y = ix3 u k j := ⟨y 0, y 1, y 2, eq_ix3 y⟩
  have he : ((cfg0.win 2).blk (pt n 2)).view.emb (ix3 u k j) = ix3 n k j := funext fun a => Fin.ext (by
    have hi := index2 (pt n 2)
    have hu : u.val = 0 := by omega
    match a with
    | ⟨0, _⟩ => show win0_2.index (pt n 2) 0 * 1 + 1 * u.val = n.val; rw [hi.1]; show (3 * n.val + 2) / 3 * 1 + 1 * u.val = n.val; omega
    | ⟨1, _⟩ => show win0_2.index (pt n 2) 1 * 3 + 1 * k.val = k.val; rw [hi.2.1]; omega
    | ⟨2, _⟩ => show win0_2.index (pt n 2) 2 * 128 + 1 * j.val = j.val; rw [hi.2.2]; omega)
  rw [he]
  exact (outAt_pt m c n u k j)

set_option maxRecDepth 65536 in
/-- So the output array ends holding `outArr`: every image's slab is written back at the image's last tile. -/
theorem final2 (c : Dev nD) : (dats m 0 c).arrAt 2 cfg0.N = outArr m c :=
  (dats m 0 c).arrAt_eq_of_cover 2 (outArr m c) (flushed_eq m c) fun i =>
    ⟨pt (i 0) 2, (flush0_2 (pt (i 0) 2)).mpr (by show (3 * (i 0).val + 2) % 3 = 2; omega), by
      show i ∈ ((View.whole main_call0_v2).slice (win0_2.rect (pt (i 0) 2))).set
      rw [View.set_slice_whole, Rect.mem_set_unit]
      intro a
      have hi := index2 (pt (i 0) 2)
      have h0 : ((i 0 : Fin 16) : Nat) < 16 := (i 0).isLt
      have h1 : ((i 1 : Fin 3) : Nat) < 3 := (i 1).isLt
      have h2 : ((i 2 : Fin 128) : Nat) < 128 := (i 2).isLt
      match a with
      | ⟨0, _⟩ =>
        show win0_2.index (pt (i 0) 2) 0 * 1 ≤ (i 0 : Nat) ∧ (i 0 : Nat) < win0_2.index (pt (i 0) 2) 0 * 1 + 1
        rw [hi.1]; show (3 * (i 0).val + 2) / 3 * 1 ≤ (i 0 : Nat) ∧ (i 0 : Nat) < (3 * (i 0).val + 2) / 3 * 1 + 1; omega
      | ⟨1, _⟩ =>
        show win0_2.index (pt (i 0) 2) 1 * 3 ≤ (i 1 : Nat) ∧ (i 1 : Nat) < win0_2.index (pt (i 0) 2) 1 * 3 + 3
        rw [hi.2.1]; omega
      | ⟨2, _⟩ =>
        show win0_2.index (pt (i 0) 2) 2 * 128 ≤ (i 2 : Nat) ∧ (i 2 : Nat) < win0_2.index (pt (i 0) 2) 2 * 128 + 128
        rw [hi.2.2]; omega⟩

end Cert.ReferenceIdeal.RValue

end
-- ==== Proof.RefValue.lean ====
/-
  The reference program's two results. The host lines after the region take lane 0 of every slab of the output array,
  sum over the sixteen images into three totals, and divide: total 1 by total 2 (the accuracy), total 0 by 2^20 (the
  mean loss). Each total is the sum, over the images, the 27008 lanes and the three tiles, of what the tile added at
  the lane — zero past the image's end —, which is the sum of the per-pixel quantity over every pixel of every image:
  the lanes of the three tiles that lie inside the image are its 65536 pixels, once each.
-/
import proofs.«163244_g2000502686089012_pallasbulk_752_2_alg».proof.Proof.RefArr
import Idealize.ShloMosaic.Lib.Pipeline.Value
import Idealize.ShloMosaic.Lib.StableHlo.Run
import Idealize.ShloMosaic.Lib.IdealHost

set_option maxRecDepth 16384

noncomputable section

namespace Cert.ReferenceIdeal.RValue

open Idealize.ShloMosaic Idealize.ShloMosaic.ValueIdx Idealize.ShloMosaic.TcCoe Idealize.SL.Sem
open Cert.ReferenceIdeal Cert.ReferenceIdeal.Gen Cert.Spec Cert.ReferenceIdeal.RF Cert.ReferenceIdeal.RPay

variable (m : (ℓ : Loc nD τ sig) → Buf (Elt Ideal) ℓ) (ρ : Dev nD → PrngReg)

/-! ## The host lines after the region -/

/-- The three totals the host lines form from the output array: lane 0 of every slab, summed over the images. -/
def tailTot (O : FVec Ideal S16x3x128 .f32) : FVec Ideal S3 .f32 :=
  Host.reduceAdd (shapeCast S16x3 (extractStridedSlice S16x3x1 ![0, 0, 0] O slices_S16x3x128_S16x3x1_0_0_0) shapeCasts_S16x3x1_S16x3)
    (constant S_ .f32 0x00000000#32) reducesTo_S16x3_S3_d0 h_S_
/-- The accuracy the host lines form: total 1 over total 2. -/
def tailAcc (O : FVec Ideal S16x3x128 .f32) : FVec Ideal S_ .f32 :=
  Host.divf (shapeCast S_ (extractStridedSlice S1 ![1] (tailTot O) slices_S3_S1_1) shapeCasts_S1_S_)
    (shapeCast S_ (extractStridedSlice S1 ![2] (tailTot O) slices_S3_S1_2) shapeCasts_S1_S_)
/-- The mean loss the host lines form: total 0 over 2^20. -/
def tailLoss (O : FVec Ideal S16x3x128 .f32) : FVec Ideal S_ .f32 :=
  Host.divf (shapeCast S_ (extractStridedSlice S1 ![0] (tailTot O) slices_S3_S1_0) shapeCasts_S1_S_)
    (constant S_ .f32 0x49800000#32)

/-- The output array as the host lines find it. -/
theorem withArrays2 (c : Dev nD) :
    Pipeline.withArrays (cfgs 0).spec c (V0 m c) (fun w => (dats m 0 c).arrAt w (cfgs 0).N) (Proc.devRef .tc main_call0_v2)
      = outArr m c :=
  (Pipeline.withArrays_arr spec0 launch0.win.arr_inj c _ _ 2).trans (final2 m c)

set_option maxRecDepth 65536 in
theorem tail_acc (c : Dev nD) :
    Pipeline.afterTail₀ cfgs (dats m) 0 (V0 m) [hostOps1] c main_v0_0 = tailAcc (outArr m c) := by
  unfold Pipeline.afterTail₀
  show StableHlo.after hostOps1 _ (Proc.devRef .tc main_v0_0) = _
  after_results
  exact (show _ = tailAcc (Pipeline.withArrays (cfgs 0).spec c (V0 m c) (fun w => (dats m 0 c).arrAt w (cfgs 0).N) (Proc.devRef .tc main_call0_v2)) from rfl).trans
    (congrArg tailAcc (withArrays2 m c))

set_option maxRecDepth 65536 in
theorem tail_loss (c : Dev nD) :
    Pipeline.afterTail₀ cfgs (dats m) 0 (V0 m) [hostOps1] c main_v0_1 = tailLoss (outArr m c) := by
  unfold Pipeline.afterTail₀
  show StableHlo.after hostOps1 _ (Proc.devRef .tc main_v0_1) = _
  after_results
  exact (show _ = tailLoss (Pipeline.withArrays (cfgs 0).spec c (V0 m c) (fun w => (dats m 0 c).arrAt w (cfgs 0).N) (Proc.devRef .tc main_call0_v2)) from rfl).trans
    (congrArg tailLoss (withArrays2 m c))

/-! ## The host lines read, and the totals -/

theorem lift_img (h : S16x3.Reduces [0] S3) (k : Fin 3) (n : Fin 16) : h.lift (ix1 k) n = ix2 n k := by
  funext c
  match c with
  | ⟨0, _⟩ => rfl
  | ⟨1, _⟩ => rfl

/-- Total `k` is the sum over the images of lane 0 of row `k` of the image's slab. -/
theorem tailTot_apply (O : FVec Ideal S16x3x128 .f32) (k : Fin 3) :
    tailTot O (ix1 k) = ∑ n : Fin 16, O (ix3 n k (0 : Fin 128)) := by
  unfold tailTot
  rw [hostReduceAdd_apply, Ideal.hostReduceAdd_single reducesTo_S16x3_S3_d0 (by decide : S16x3.Reduces [0] S3)]
  have h0 : (constant S_ .f32 0x00000000#32 : FVec Ideal S_ .f32) (Shape.Idx.first h_S_) = 0 := Ideal.ofBits_zero_f32
  rw [h0, zero_add]
  refine Finset.sum_congr rfl fun n _ => ?_
  refine (congrArg (shapeCast S16x3 (extractStridedSlice S16x3x1 ![0, 0, 0] O slices_S16x3x128_S16x3x1_0_0_0) shapeCasts_S16x3x1_S16x3)
    (lift_img _ k n)).trans ?_
  refine (shapeCast_apply _ _ (ix2 n k) (ix3 n k (0 : Fin 1)) (by
    rw [Shape.rowMajor_val_three, Shape.rowMajor_val_two]
    show (n.val * 3 + k.val) * 1 + 0 = n.val * 3 + k.val
    omega)).trans ?_
  exact extractStridedSlice_apply ![0, 0, 0] O _ (ix3 n k (0 : Fin 1)) (ix3 n k (0 : Fin 128)) fun a =>
    match a with
    | ⟨0, _⟩ => by show n.val = 0 + n.val; omega
    | ⟨1, _⟩ => by show k.val = 0 + k.val; omega
    | ⟨2, _⟩ => by show 0 = 0 + 0; rfl

/-- A one-element vector cast to a scalar reads its element. -/
theorem cast_S1_S_ (v : FVec Ideal S1 .f32) (j : S_.Idx) : shapeCast S_ v shapeCasts_S1_S_ j = v (ix1 (0 : Fin 1)) :=
  shapeCast_apply v _ j (ix1 (0 : Fin 1)) (by
    rw [Shape.rowMajor_val_one]
    have h := (S_.rowMajor j).isLt
    have h1 : S_.numel = 1 := rfl
    show 0 = _
    omega)

theorem tailAcc_eq (O : FVec Ideal S16x3x128 .f32) :
    tailAcc O = resAcc (fun k => ∑ n : Fin 16, O (ix3 n k (0 : Fin 128))) := by
  funext j
  unfold tailAcc resAcc
  rw [hostDivf_apply, cast_S1_S_, cast_S1_S_,
    extractStridedSlice_apply ![1] (tailTot O) _ (ix1 (0 : Fin 1)) (ix1 (1 : Fin 3)) (fun a => match a with | ⟨0, _⟩ => by show 1 = 1 + 0; rfl),
    extractStridedSlice_apply ![2] (tailTot O) _ (ix1 (0 : Fin 1)) (ix1 (2 : Fin 3)) (fun a => match a with | ⟨0, _⟩ => by show 2 = 2 + 0; rfl),
    tailTot_apply, tailTot_apply]

theorem tailLoss_eq (O : FVec Ideal S16x3x128 .f32) :
    tailLoss O = resLoss (fun k => ∑ n : Fin 16, O (ix3 n k (0 : Fin 128))) := by
  funext j
  unfold tailLoss resLoss
  rw [hostDivf_apply, cast_S1_S_,
    extractStridedSlice_apply ![0] (tailTot O) _ (ix1 (0 : Fin 1)) (ix1 (0 : Fin 3)) (fun a => match a with | ⟨0, _⟩ => by show 0 = 0 + 0; rfl),
    tailTot_apply]
  rfl

/-- THE TOTALS: summed over the images, lane 0 of row `k` of the output array is the total of quantity `k` over every
    pixel of every image — the lanes past an image's end added zero, and the three tiles' lanes inside the image are
    the image's pixels once each. -/
theorem totals_eq (c : Dev nD) (k : Fin 3) :
    ∑ n : Fin 16, outArr m c (ix3 n k (0 : Fin 128)) = Spec.T (arrA m c) (arrB m c) k := by
  unfold Spec.T
  show (∑ n : Fin 16, ∑ l : Fin 27008, ∑ τ : Fin 3, tileTerm m c k n l τ) = _
  unfold tileTerm
  rw [Cert.LibTileSums.sum_masked_fin (pix m c k)]
  refine Finset.sum_congr rfl fun n _ => Finset.sum_congr rfl fun p _ => ?_
  unfold pix
  rw [dif_pos ⟨n.isLt, p.isLt⟩]

/-! ## The run, read -/

/-- The logits array as the region finds it is the host's reshape of the first argument, -/
theorem arrA_eq (c : Dev nD) :
    arrA m c = shapeCast S16x32x65536 (m ((c.tc : Thread nD τ).loc main_arg0)) shapeCasts_S16x32x256x256_S16x32x65536 := by
  unfold arrA
  show StableHlo.after hostOps0 (fun b => m (c, b)) (Proc.devRef .tc main_call0_v0) = _
  after_results
  rfl
/-- and the target array that of the second. -/
theorem arrB_eq (c : Dev nD) :
    arrB m c = shapeCast S16x32x65536 (m ((c.tc : Thread nD τ).loc main_arg1)) shapeCasts_S16x32x256x256_S16x32x65536 := by
  unfold arrB
  show StableHlo.after hostOps0 (fun b => m (c, b)) (Proc.devRef .tc main_call0_v1) = _
  after_results
  rfl

/-- THE REFERENCE'S RUN: every weakly fair execution terminates; the two results are the accuracy and the mean loss of
    the totals over every pixel of every image of the two reshaped arguments; the arguments end unchanged. -/
theorem run : θ_run defs (onTc (τ := τ) (main (F := Ideal))) ⟨m, fun _ => 0, ρ⟩ (fun r => ∀ c : Dev nD,
      r.2.mem ((c.tc : Thread nD τ).loc main_v0_0) = resAcc (Spec.T (arrA m c) (arrB m c))
      ∧ r.2.mem ((c.tc : Thread nD τ).loc main_v0_1) = resLoss (Spec.T (arrA m c) (arrB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0_0 (Pipeline.mem_restRefs_of main_v0_0 (by decide) (by decide))).trans
        ((tail_acc m c).trans ((tailAcc_eq _).trans (congrArg resAcc (funext fun k => totals_eq m c k)))),
      ((h c).2 main_v0_1 (Pipeline.mem_restRefs_of main_v0_1 (by decide) (by decide))).trans
        ((tail_loss m c).trans ((tailLoss_eq _).trans (congrArg resLoss (funext fun k => totals_eq m c k)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.ReferenceIdeal.RValue

end
-- ==== Proof.lean ====
/-
  Two programs compute, from 16 images of 32-channel logits and targets over 65536 pixels each, the accuracy and the
  mean loss of a per-pixel softmax cross-entropy: per pixel the term (max + log of the sum of shifted exponentials)
  minus the target logit, the indicator that the target logit attains the maximum where target channel 0 is zero,
  and the indicator that target channel 0 is zero; the three are summed over all pixels, and the results are
  total 1 / total 2 and total 0 / 2^20.

  The kernel walks two slabs of eight images in 32 steps of 16384 lanes each and sums the two slabs' lane sums; the
  reference walks the 16 images in three tiles of 27008 lanes, the last tile overhanging the image, masks the lanes
  past the image's end to zero, and sums the 16 images' lane sums. Over the extended reals both are the same finite
  sums of the same per-pixel terms, regrouped: addition there is commutative and associative, and nothing else is
  used — in particular not the finiteness of the inputs. The frames of the kernel and of its idealization are the
  generated ones; the reference's frame is proved by hand, its blocks' lanes past the array's end being the reason;
  the idealization rewrote nothing.
-/
import proofs.«163244_g2000502686089012_pallasbulk_752_2_alg».proof.Defs
import proofs.«163244_g2000502686089012_pallasbulk_752_2_alg».proof.Proof.Gen.Kernel
import proofs.«163244_g2000502686089012_pallasbulk_752_2_alg».proof.Proof.Gen.Kernel.Frame
import proofs.«163244_g2000502686089012_pallasbulk_752_2_alg».proof.Proof.Gen.KernelIdeal
import proofs.«163244_g2000502686089012_pallasbulk_752_2_alg».proof.Proof.Gen.KernelIdeal.Frame
import proofs.«163244_g2000502686089012_pallasbulk_752_2_alg».proof.Proof.Gen.ReferenceIdeal
import proofs.«163244_g2000502686089012_pallasbulk_752_2_alg».proof.Proof.Gen.Pre_finite_inputs
import proofs.«163244_g2000502686089012_pallasbulk_752_2_alg».proof.Proof.KValue
import proofs.«163244_g2000502686089012_pallasbulk_752_2_alg».proof.Proof.RefValue
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RF.frame m ρ

/-- The idealization rewrote no operation. -/
theorem preserves : Cert.preserves_Kernel_KernelIdeal := trivial

/-- From memories agreeing on the two arguments, both programs end with the accuracy and the mean loss of the same
    totals: each reads its two arrays as the same reshapes of the arguments, and each side's results are the quotients
    of the totals of the per-pixel terms over every pixel of every image. -/
theorem algebraic : Cert.algebraic_KernelIdeal_ReferenceIdeal := by
  intro m ρ m' ρ' _ hagree
  refine ⟨fun c => resAcc (Spec.T (Cert.KernelIdeal.KValue.arrA m c) (Cert.KernelIdeal.KValue.arrB m c)),
    fun c => resLoss (Spec.T (Cert.KernelIdeal.KValue.arrA m c) (Cert.KernelIdeal.KValue.arrB m c)),
    Cert.KernelIdeal.KValue.run m ρ, ?_⟩
  refine (θ_run Cert.ReferenceIdeal.defs _ _).mono (fun _ h c => ?_) (Cert.ReferenceIdeal.RValue.run m' ρ')
  have eA : Cert.ReferenceIdeal.RValue.arrA m' c = Cert.KernelIdeal.KValue.arrA m c := by
    rw [Cert.ReferenceIdeal.RValue.arrA_eq, Cert.KernelIdeal.KValue.arrA_eq, (hagree c).1]
  have eB : Cert.ReferenceIdeal.RValue.arrB m' c = Cert.KernelIdeal.KValue.arrB m c := by
    rw [Cert.ReferenceIdeal.RValue.arrB_eq, Cert.KernelIdeal.KValue.arrB_eq, (hagree c).2]
  have h' := h c
  rw [eA, eB] at h'
  exact h'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
